-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x1x1 : Shape := ⟨3, ![4, 1, 1]⟩
abbrev S1x2048x3 : Shape := ⟨3, ![1, 2048, 3]⟩
abbrev S1x3x1024 : Shape := ⟨3, ![1, 3, 1024]⟩
abbrev S1x1x1 : Shape := ⟨3, ![1, 1, 1]⟩
abbrev S2048x1 : Shape := ⟨2, ![2048, 1]⟩
abbrev S1x8192 : Shape := ⟨2, ![1, 8192]⟩
abbrev S1x1 : Shape := ⟨2, ![1, 1]⟩
abbrev S2048x3 : Shape := ⟨2, ![2048, 3]⟩
abbrev S3x1024 : Shape := ⟨2, ![3, 1024]⟩
abbrev S2048x1024 : Shape := ⟨2, ![2048, 1024]⟩
abbrev S1x1024 : Shape := ⟨2, ![1, 1024]⟩
abbrev S2048 : Shape := ⟨1, ![2048]⟩
abbrev S1024 : Shape := ⟨1, ![1024]⟩
abbrev S1 : Shape := ⟨1, ![1]⟩
abbrev S4 : Shape := ⟨1, ![4]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x1x1, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S4, .f32⟩
  | .local _ .vmem, ⟨0, _⟩ => ⟨S1x2048x3, .f32⟩
  | .local _ .vmem, ⟨1, _⟩ => ⟨S1x2048x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1x1, .f32⟩
  | .local _ .vmem, ⟨5, _⟩ => ⟨S1x1x1, .f32⟩
  | .local _ .vmem, ⟨6, _⟩ => ⟨S2048x1, .f32⟩
  | .local _ .vmem, ⟨7, _⟩ => ⟨S1x8192, .f32⟩
  | .local _ .vmem, ⟨8, _⟩ => ⟨S1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c1024_i32 : BitVec 32 := 1024#32
  let v43 : BitVec 32 := Scalar.muli arg2 c1024_i32
  v43
def k0_off1 (i : grid0.Coords) : Fin 2 → Nat :=
  let c0_15 : Index := 0#32
  let arg2 : BitVec 32 := BitVec.ofNat 32 (i 2).val
  let c1024_i32 : BitVec 32 := 1024#32
  let v43 : BitVec 32 := Scalar.muli arg2 c1024_i32
  let v44 : BitVec 32 := v43
  let v45 : Index := Scalar.indexCast v44
  ![0, v45.toNat]
def k0_cond4 (i : grid0.Coords) : BitVec 1 :=
  let arg1 : BitVec 32 := BitVec.ofNat 32 (i 1).val
  let c3_i32 : BitVec 32 := 3#32
  let v55 : BitVec 1 := Scalar.cmpi .eq arg1 c3_i32
  let arg2 : BitVec 32 := BitVec.ofNat 32 (i 2).val
  let c7_i32_18 : BitVec 32 := 7#32
  let v56 : BitVec 1 := Scalar.cmpi .eq arg2 c7_i32_18
  let v57 : BitVec 1 := Scalar.andi v55 v56
  let v58 : BitVec 32 := Scalar.extui v57
  let c0_i32_19 : BitVec 32 := 0#32
  let v59 : BitVec 1 := Scalar.cmpi .ne v58 c0_i32_19
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  transposes_S4x8192x3_S4x3x8192_0_2_1 : S4x8192x3.Transposes [0, 2, 1] S4x3x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S2048x3_o0_0_S2048x1 : S2048x3.Slices ![0, 0] S2048x1
  slices_S3x1024_o0_0_S1x1024 : S3x1024.Slices ![0, 0] S1x1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S3x1024_o1_0_S1x1024 : S3x1024.Slices ![1, 0] S1x1024
  slices_S2048x3_o0_2_S2048x1 : S2048x3.Slices ![0, 2] S2048x1
  slices_S3x1024_o2_0_S1x1024 : S3x1024.Slices ![2, 0] S1x1024
  reduces_S2048x1024_S2048 : S2048x1024.Reduces [1] S2048
  shapeCasts_S2048_S2048x1 : S2048.ShapeCasts S2048x1
  reduces_S2048x1024_S1024 : S2048x1024.Reduces [0] S1024
  shapeCasts_S1024_S1x1024 : S1024.ShapeCasts S1x1024
  h_S1x1024 : 0 < S1x1024.numel
  shapeCasts_S1x1024_S1x1024 : S1x1024.ShapeCasts S1x1024
  reduces_S2048x1_S1 : S2048x1.Reduces [0] S1
  shapeCasts_S1_S1x1 : S1.ShapeCasts S1x1
  reduces_S1x8192_S1 : S1x8192.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S4x1x1_S4 : S4x1x1.ShapeCasts S4
  bcast_S_S4 : S_.BroadcastsInDim S4 (![] : Fin 0 → Fin S4.rank)
  hrank0 : 0 < grid0.rank
  k0_mult1_dvd : ∀ i : grid0.Coords, 1024 ∣ (k0_mult1 i).toNat
  k0_off1_inb : ∀ i : grid0.Coords, ∀ a, (k0_off1 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S4x8192x3.size a
  hwx0_0 : ∀ i : grid0.Coords, EltTy.bits .f32 = 32 ∨ (Rect.block (s := S4x8192x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x8192.size a
  hwx0_1 : ∀ i : grid0.Coords, EltTy.bits .f32 = 32 ∨ (Rect.block (s := S4x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4x8192, .f32⟩
  | .hbm, ⟨28, _⟩ => ⟨S_, .f32⟩
  | .hbm, ⟨29, _⟩ => ⟨S4, .f32⟩
  | .hbm, ⟨30, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The symmetric Hausdorff distance of two point clouds, as one function of the two coordinate arrays.

  For points `a n` and `g m` in three coordinates the squared distance is written in two ways:
  `sqd`, the sum of the squared coordinate differences, and `ex`, the expansion
  |a|² + |g|² − 2 a·g. For a table `d n m` of pairwise numbers, `hdF d` is the larger of the two
  directed quantities  max over n of min over m,  and  max over m of min over n. The distance itself
  is `clampSqrt` (the square root of the number clamped at zero from below) applied either to the
  squared Hausdorff number or, entry by entry, before the minima and maxima are taken: the map is
  monotone, so the two agree.
-/
import Idealize.ShloMosaic.PureOps.Ideal
import Idealize.ShloMosaic.Lib.ValueIdx

noncomputable section

namespace Cert.Hausdorff

open Idealize.ShloMosaic

/-- The squared distance of two points as the sum of the three squared coordinate differences,
    added from the left. -/
def sqd (a g : Fin 3 → EReal) : EReal :=
  (a 0 - g 0) * (a 0 - g 0) + (a 1 - g 1) * (a 1 - g 1) + (a 2 - g 2) * (a 2 - g 2)

/-- The squared distance of two points by the expansion |a|² + |g|² − 2 a·g. -/
def ex (a g : Fin 3 → EReal) : EReal :=
  ((∑ k, a k * a k) + ∑ k, g k * g k) - 2 * ∑ k, a k * g k

/-- The square root of a number clamped at zero from below. -/
def clampSqrt (x : EReal) : EReal := Ideal.sqrt (max x 0)

/-- The symmetric Hausdorff number of a table of pairwise numbers: the larger of
    max over rows of the row minimum and max over columns of the column minimum. -/
def hdF {N M : Nat} (d : Fin N → Fin M → EReal) : EReal :=
  max (Finset.univ.sup fun n => Finset.univ.inf fun m => d n m)
      (Finset.univ.sup fun m => Finset.univ.inf fun n => d n m)

end Cert.Hausdorff

end
-- ==== Proof.RefValue.lean ====
/-
  The reference program's value, read index by index.

  The reference computes, for each batch b, the table d n m = sqrt (max (|a n|² + |g m|² − 2 a n · g m) 0) of the
  pairwise numbers of the two point clouds, then the larger of  max over n of min over m  and  max over m of min over n.
  Each of its four reductions runs over one axis with a commutative associative body (min or max) from that body's
  neutral element (+∞ for min, −∞ for max), so it is the lattice infimum or supremum over that axis's coordinates.
  Read this way the program's result at b is the symmetric Hausdorff number of the table  clampSqrt (ex (a n) (g m)).
-/
import proofs.«168341_j11381663334571_2_alg».proof.Proof.Gen.ReferenceIdeal.Read
import proofs.«168341_j11381663334571_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Cert.Hausdorff

/-! ## The three constants -/

/-- The f32 pattern of +∞ denotes the top element. -/
theorem ofBits_pos_inf : Ideal.ofBits .f32 0x7F800000#32 = (⊤ : EReal) := by simp [Ideal.ofBits, Ideal.ieee]

/-- The f32 pattern of −∞ denotes the bottom element. -/
theorem ofBits_neg_inf : Ideal.ofBits .f32 0xFF800000#32 = (⊥ : EReal) := by simp [Ideal.ofBits, Ideal.ieee]

/-- The f32 pattern 0x40000000 denotes 2. -/
theorem ofBits_two : Ideal.ofBits .f32 0x40000000#32 = (2 : EReal) := by
  simp [Ideal.ofBits, Ideal.ieee, -EReal.coe_mul]; norm_num; first | rfl | norm_cast

/-! ## One entry of the table -/

/-- Through the two broadcasts and the sum over the last axis, the squared norm read at (b, n, m) reads the first
    array at (b, n, k). -/
theorem idx_sq_left (b : Fin 4) (n m : Fin 8192) (k : Fin 3) :
    idx_main_v1 (idx_main_v5 (idx_main_v7 (ix3 b n m))) k = ix3 b n k := by
  funext a; match a with | ⟨0, _⟩ => rfl | ⟨1, _⟩ => rfl | ⟨2, _⟩ => rfl

/-- Likewise the second array's squared norm read at (b, n, m) reads it at (b, m, k). -/
theorem idx_sq_right (b : Fin 4) (n m : Fin 8192) (k : Fin 3) :
    idx_main_v3 (idx_main_v6 (idx_main_v8 (ix3 b n m))) k = ix3 b m k := by
  funext a; match a with | ⟨0, _⟩ => rfl | ⟨1, _⟩ => rfl | ⟨2, _⟩ => rfl

/-- The contraction's left operand index at (b, n, m) and k is (b, n, k) … -/
theorem idx_dot_left (b : Fin 4) (n m : Fin 8192) (k : Fin 3) : lidx_main_v4 (ix3 b n m) k = ix3 b n k := by
  funext a; match a with | ⟨0, _⟩ => rfl | ⟨1, _⟩ => rfl | ⟨2, _⟩ => rfl

/-- … and its right operand index is (b, m, k). -/
theorem idx_dot_right (b : Fin 4) (n m : Fin 8192) (k : Fin 3) : ridx_main_v4 (ix3 b n m) k = ix3 b m k := by
  funext a; match a with | ⟨0, _⟩ => rfl | ⟨1, _⟩ => rfl | ⟨2, _⟩ => rfl

/-- The entry (b, n, m) of the table the reference reduces: the clamped square root of the expansion
    |a n|² + |g m|² − 2 a n · g m. -/
theorem entry (A G : FVec Ideal S4x8192x3 .f32) (b : Fin 4) (n m : Fin 8192) :
    val_main_v15 (F := Ideal) A G (ix3 b n m)
      = clampSqrt (ex (fun k => A (ix3 b n k)) (fun k => G (ix3 b m k))) := by
  rw [val_main_v15_apply, val_main_v14_apply, val_main_v12_apply, val_main_v13_apply, val_main_v9_apply,
    val_main_v11_apply, val_main_v10_apply, val_main_v7_apply, val_main_v8_apply, val_main_v5_apply,
    val_main_v6_apply, val_main_v1_apply, val_main_v3_apply, val_main_v4_apply, val_main_cst_apply,
    val_main_cst_0_apply, val_main_cst_1_apply, val_main_cst_2_apply]
  simp only [val_main_v0_apply, val_main_v2_apply, idx_sq_left, idx_sq_right, idx_dot_left, idx_dot_right,
    Ideal.ofBits_def, Ideal.ofBits_zero_f32, ofBits_two, Ideal.hostUnary_sqrt_def, Ideal.maximumf_def, Ideal.subf_def,
    Ideal.addf_def, Ideal.mulf_def, zero_add]
  rfl

/-! ## A one-axis reduction by min or max is the infimum or supremum over that axis

Each lemma takes the reduced array as an arbitrary function, so that it applies to any stage of the program. -/

/-- A reduction by min over the last axis of a 4 × 8192 × 8192 array, started at ⊤: at (b, n) the infimum over m. -/
theorem reduce_min_last (y : FVec Ideal S4x8192x8192 .f32) (init : FVec Ideal S_ .f32)
    (hi : init (Shape.Idx.first h_S_) = (⊤ : EReal)) (b : Fin 4) (n : Fin 8192) :
    Host.reduce FloatOps.minimumf y init reducesTo_S4x8192x8192_S4x8192_d2 h_S_ (ix2 b n)
      = Finset.univ.inf fun m : Fin 8192 => y (ix3 b n m) := by
  have h : Shape.Reduces S4x8192x8192 [2] S4x8192 := by decide
  rw [Host.reduce_eq_fold_single FloatOps.minimumf y init reducesTo_S4x8192x8192_S4x8192_d2 h h_S_, hi]
  have e : (y ∘ h.lift (ix2 b n)) = fun m : Fin 8192 => y (ix3 b n m) :=
    funext fun m => congrArg y (funext fun a => Fin.ext (by
      match a with | ⟨0, _⟩ => rfl | ⟨1, _⟩ => rfl | ⟨2, _⟩ => rfl))
  rw [e]
  rfl

/-- A reduction by min over the middle axis of a 4 × 8192 × 8192 array, started at ⊤: at (b, m) the infimum over n. -/
theorem reduce_min_mid (y : FVec Ideal S4x8192x8192 .f32) (init : FVec Ideal S_ .f32)
    (hi : init (Shape.Idx.first h_S_) = (⊤ : EReal)) (b : Fin 4) (m : Fin 8192) :
    Host.reduce FloatOps.minimumf y init reducesTo_S4x8192x8192_S4x8192_d1 h_S_ (ix2 b m)
      = Finset.univ.inf fun n : Fin 8192 => y (ix3 b n m) := by
  have h : Shape.Reduces S4x8192x8192 [1] S4x8192 := by decide
  rw [Host.reduce_eq_fold_single FloatOps.minimumf y init reducesTo_S4x8192x8192_S4x8192_d1 h h_S_, hi]
  have e : (y ∘ h.lift (ix2 b m)) = fun n : Fin 8192 => y (ix3 b n m) :=
    funext fun n => congrArg y (funext fun a => Fin.ext (by
      match a with | ⟨0, _⟩ => rfl | ⟨1, _⟩ => rfl | ⟨2, _⟩ => rfl))
  rw [e]
  rfl

/-- A reduction by max over the last axis of a 4 × 8192 array, started at ⊥: at b the supremum over that axis. -/
theorem reduce_max_last (y : FVec Ideal S4x8192 .f32) (init : FVec Ideal S_ .f32)
    (hi : init (Shape.Idx.first h_S_) = (⊥ : EReal)) (b : Fin 4) :
    Host.reduce FloatOps.maximumf y init reducesTo_S4x8192_S4_d1 h_S_ (ix1 b)
      = Finset.univ.sup fun n : Fin 8192 => y (ix2 b n) := by
  have h : Shape.Reduces S4x8192 [1] S4 := by decide
  rw [Host.reduce_eq_fold_single FloatOps.maximumf y init reducesTo_S4x8192_S4_d1 h h_S_, hi]
  have e : (y ∘ h.lift (ix1 b)) = fun n : Fin 8192 => y (ix2 b n) :=
    funext fun n => congrArg y (funext fun a => Fin.ext (by
      match a with | ⟨0, _⟩ => rfl | ⟨1, _⟩ => rfl))
  rw [e]
  rfl

/-! ## The four reductions of the program -/

/-- The minimum over the last axis: at (b, n) the infimum over m of the table's entries. -/
theorem row_min (A G : FVec Ideal S4x8192x3 .f32) (b : Fin 4) (n : Fin 8192) :
    val_main_v16 (F := Ideal) A G (ix2 b n)
      = Finset.univ.inf fun m : Fin 8192 => val_main_v15 (F := Ideal) A G (ix3 b n m) := by
  unfold val_main_v16
  exact reduce_min_last _ _ (by rw [val_main_cst_3_apply, Ideal.ofBits_def, ofBits_pos_inf]) b n

/-- The minimum over the middle axis: at (b, m) the infimum over n of the table's entries. -/
theorem col_min (A G : FVec Ideal S4x8192x3 .f32) (b : Fin 4) (m : Fin 8192) :
    val_main_v18 (F := Ideal) A G (ix2 b m)
      = Finset.univ.inf fun n : Fin 8192 => val_main_v15 (F := Ideal) A G (ix3 b n m) := by
  unfold val_main_v18
  exact reduce_min_mid _ _ (by rw [val_main_cst_5_apply, Ideal.ofBits_def, ofBits_pos_inf]) b m

/-- The maximum over n of the row minima: at b the supremum over n. -/
theorem row_max (A G : FVec Ideal S4x8192x3 .f32) (b : Fin 4) :
    val_main_v17 (F := Ideal) A G (ix1 b)
      = Finset.univ.sup fun n : Fin 8192 => val_main_v16 (F := Ideal) A G (ix2 b n) := by
  unfold val_main_v17
  exact reduce_max_last _ _ (by rw [val_main_cst_4_apply, Ideal.ofBits_def, ofBits_neg_inf]) b

/-- The maximum over m of the column minima: at b the supremum over m. -/
theorem col_max (A G : FVec Ideal S4x8192x3 .f32) (b : Fin 4) :
    val_main_v19 (F := Ideal) A G (ix1 b)
      = Finset.univ.sup fun m : Fin 8192 => val_main_v18 (F := Ideal) A G (ix2 b m) := by
  unfold val_main_v19
  exact reduce_max_last _ _ (by rw [val_main_cst_6_apply, Ideal.ofBits_def, ofBits_neg_inf]) b

/-! ## The reference's value -/

/-- The reference's result at batch b is the symmetric Hausdorff number of the table of clamped square roots of the
    expansion, over the points (b, n, ·) of the first array and (b, m, ·) of the second. -/
theorem ref_value (A G : FVec Ideal S4x8192x3 .f32) (b : Fin 4) :
    val_main_v20 (F := Ideal) A G (ix1 b)
      = hdF (fun (n m : Fin 8192) => clampSqrt (ex (fun k => A (ix3 b n k)) (fun k => G (ix3 b m k)))) := by
  rw [val_main_v20_apply, Ideal.maximumf_def, row_max, col_max]
  unfold hdF
  simp only [row_min, col_min, entry]

end Cert.ReferenceIdeal.RefValue

end
-- ==== Proof.Laws.lean ====
/-
  Order-theoretic and arithmetic facts about the extended reals used to compare two ways of
  computing a symmetric Hausdorff distance: folds of `min` / `max` are finite infima / suprema,
  infima and suprema over an initial segment of the naturals split at any point, a monotone map
  commutes with the Hausdorff number of a nonempty table, the clamped square root is monotone, and
  over finite reals the expansion |a|² + |g|² − 2 a·g is the sum of squared coordinate differences.
-/
import proofs.«168341_j11381663334571_2_alg».proof.Proof.Spec

noncomputable section

namespace Cert.Hausdorff

open Idealize.ShloMosaic

/-- Folding `min` from `⊤` over a finite family is the infimum of the family. -/
theorem fold_min_top {ι : Type*} (s : Finset ι) (f : ι → EReal) : s.fold min ⊤ f = s.inf f := rfl

/-- Folding `max` from `⊥` over a finite family is the supremum of the family. -/
theorem fold_max_bot {ι : Type*} (s : Finset ι) (f : ι → EReal) : s.fold max ⊥ f = s.sup f := rfl

/-- The single-precision pattern with all exponent bits set and zero fraction denotes `+∞`. -/
theorem ofBits_pos_inf : Ideal.ofBits .f32 0x7F800000#32 = (⊤ : EReal) := by
  simp [Ideal.ofBits, Ideal.ieee]

/-- The same pattern with the sign bit set denotes `−∞`. -/
theorem ofBits_neg_inf : Ideal.ofBits .f32 0xFF800000#32 = (⊥ : EReal) := by
  simp [Ideal.ofBits, Ideal.ieee]

/-- The single-precision pattern with biased exponent 128 and zero fraction denotes `2`. -/
theorem ofBits_two : Ideal.ofBits .f32 0x40000000#32 = (2 : EReal) := by
  simp [Ideal.ofBits, Ideal.ieee, -EReal.coe_mul]; norm_num; rfl

/-- The infimum over the first `K + L` naturals is the smaller of the infimum over the first `K`
    and the infimum over the next `L`. -/
theorem inf_range_add (K L : Nat) (f : Nat → EReal) :
    (Finset.range (K + L)).inf f
      = min ((Finset.range K).inf f) ((Finset.range L).inf fun j => f (K + j)) := by
  induction L with
  | zero => simp
  | succ L ih =>
    rw [← Nat.add_assoc, Finset.range_add_one, Finset.inf_insert, ih, Finset.range_add_one,
      Finset.inf_insert]
    show min (f (K + L)) _ = min _ (min (f (K + L)) _)
    exact min_left_comm _ _ _

/-- The supremum over the first `K + L` naturals is the larger of the supremum over the first `K`
    and the supremum over the next `L`. -/
theorem sup_range_add (K L : Nat) (f : Nat → EReal) :
    (Finset.range (K + L)).sup f
      = max ((Finset.range K).sup f) ((Finset.range L).sup fun j => f (K + j)) := by
  induction L with
  | zero => simp
  | succ L ih =>
    rw [← Nat.add_assoc, Finset.range_add_one, Finset.sup_insert, ih, Finset.range_add_one,
      Finset.sup_insert]
    show max (f (K + L)) _ = max _ (max (f (K + L)) _)
    exact max_left_comm _ _ _

/-- The infimum over the indices below `n`, taken as a finite type, is the infimum over the
    initial segment of the naturals. -/
theorem inf_univ_fin (n : Nat) (f : Nat → EReal) :
    (Finset.univ : Finset (Fin n)).inf (fun j => f j.val) = (Finset.range n).inf f := by
  rw [← Nat.Iio_eq_range, ← Fin.map_valEmbedding_univ, Finset.inf_map]
  rfl

/-- The supremum over the indices below `n`, taken as a finite type, is the supremum over the
    initial segment of the naturals. -/
theorem sup_univ_fin (n : Nat) (f : Nat → EReal) :
    (Finset.univ : Finset (Fin n)).sup (fun j => f j.val) = (Finset.range n).sup f := by
  rw [← Nat.Iio_eq_range, ← Fin.map_valEmbedding_univ, Finset.sup_map]
  rfl

/-- The extended square root, with `−∞` at negative numbers, is monotone. -/
private theorem sqrt_mono : Monotone Ideal.sqrt := by
  intro x y hxy
  induction x using EReal.rec with
  | bot => simp
  | top =>
    have hy : y = ⊤ := top_le_iff.mp hxy
    rw [hy]
  | coe r =>
    induction y using EReal.rec with
    | bot => exact absurd hxy (by simp)
    | top => simp
    | coe s =>
      have hrs : r ≤ s := EReal.coe_le_coe_iff.mp hxy
      by_cases hr : r < 0
      · simp [hr]
      · have hs : ¬ s < 0 := not_lt.mpr (le_trans (not_lt.mp hr) hrs)
        rw [Ideal.sqrt_coe, Ideal.sqrt_coe, if_neg hr, if_neg hs]
        exact EReal.coe_le_coe_iff.mpr (Real.sqrt_le_sqrt hrs)

/-- The square root of a number clamped at zero from below is monotone: clamping is monotone
    and so is the extended square root. -/
theorem clampSqrt_mono : Monotone clampSqrt := by
  intro x y hxy
  exact sqrt_mono (max_le_max hxy le_rfl)

/-- A monotone map commutes with the infimum of a nonempty finite family. -/
private theorem map_inf_of_nonempty {ι : Type*} (f : EReal → EReal) (hf : Monotone f)
    (s : Finset ι) (hs : s.Nonempty) (g : ι → EReal) :
    f (s.inf g) = s.inf fun i => f (g i) := by
  rw [← Finset.inf'_eq_inf hs, ← Finset.inf'_eq_inf hs]
  exact Finset.apply_inf'_eq_inf'_comp hs f fun a b => hf.map_inf a b

/-- A monotone map commutes with the supremum of a nonempty finite family. -/
private theorem map_sup_of_nonempty {ι : Type*} (f : EReal → EReal) (hf : Monotone f)
    (s : Finset ι) (hs : s.Nonempty) (g : ι → EReal) :
    f (s.sup g) = s.sup fun i => f (g i) := by
  rw [← Finset.sup'_eq_sup hs, ← Finset.sup'_eq_sup hs]
  exact Finset.apply_sup'_eq_sup'_comp hs f fun a b => hf.map_sup a b

/-- A monotone map commutes with the symmetric Hausdorff number of a table with at least one row
    and one column: it commutes with the outer `max`, with each supremum and with each infimum. -/
theorem hdF_comp {N M : Nat} [NeZero N] [NeZero M] (f : EReal → EReal) (hf : Monotone f)
    (d : Fin N → Fin M → EReal) : f (hdF d) = hdF (fun n m => f (d n m)) := by
  have hN : (Finset.univ : Finset (Fin N)).Nonempty := Finset.univ_nonempty
  have hM : (Finset.univ : Finset (Fin M)).Nonempty := Finset.univ_nonempty
  unfold hdF
  rw [hf.map_max, map_sup_of_nonempty f hf _ hN, map_sup_of_nonempty f hf _ hM]
  simp only [map_inf_of_nonempty f hf _ hM, map_inf_of_nonempty f hf _ hN]

/-- Over finite reals the expansion |a|² + |g|² − 2 a·g equals the sum of the three squared
    coordinate differences: both sides are the image of the same real number. -/
theorem ex_eq_sqd (a g : Fin 3 → EReal) (ha : ∀ k, ∃ r : ℝ, a k = (r : EReal))
    (hg : ∀ k, ∃ r : ℝ, g k = (r : EReal)) : ex a g = sqd a g := by
  choose ra hra using ha
  choose rg hrg using hg
  have h2 : (2 : EReal) = ((2 : ℝ) : EReal) := rfl
  unfold ex sqd
  simp only [Fin.sum_univ_three, hra, hrg, h2]
  simp only [← EReal.coe_mul, ← EReal.coe_add, ← EReal.coe_sub]
  congr 1
  ring

end Cert.Hausdorff

end
-- ==== Proof.Result.lean ====
/-
  The common result of the two programs, as one function of the two coordinate arrays: for each batch `b`
  the square root (clamped at zero) of the symmetric Hausdorff number of the table of squared distances
  between the points of the first cloud and the points of the second.
-/
import proofs.«168341_j11381663334571_2_alg».proof.Proof.Spec

noncomputable section

namespace Cert.Hausdorff

open Idealize.ShloMosaic Idealize.ShloMosaic.ValueIdx

/-- Entry `b` of the result: `clampSqrt` of the Hausdorff number of the batch's squared-distance table. -/
def hausdorffValue (A G : (⟨3, ![4, 8192, 3]⟩ : Shape).Idx → EReal) : (⟨1, ![4]⟩ : Shape).Idx → EReal :=
  fun j => clampSqrt (hdF fun (n m : Fin 8192) => sqd (fun k => A (ix3 (j 0) n k)) (fun k => G (ix3 (j 0) m k)))

end Cert.Hausdorff

end
-- ==== Proof.Finite.lean ====
/-
  The precondition "every float input is finite", decoded.

  The precondition is a host program: for each of the two arrays it takes the absolute value of every
  entry, compares it (ordered, strictly below) with +∞, reduces the resulting bits by "and" over all three axes
  from the bit 1, and finally takes the "and" of the two results. Over the extended reals the absolute value
  of x is max x (-x), the pattern 0x7F800000 denotes ⊤, and max x (-x) < ⊤ excludes exactly x = ⊥ and
  x = ⊤. So the program answering 1 says that every entry of both arrays is a real number.
-/
import proofs.«168341_j11381663334571_2_alg».proof.Pre_finite_inputs
import proofs.«168341_j11381663334571_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic

/-- The f32 pattern of +∞ denotes the top element of the extended reals. -/
theorem ofBits_pos_inf : Ideal.ofBits .f32 0x7F800000#32 = (⊤ : EReal) := by
  simp [Ideal.ofBits, Ideal.ieee]

/-- An extended real whose absolute value max x (-x) lies strictly below ⊤ is a real number:
    at ⊥ the negation is ⊤, at ⊤ the number itself is. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The element fact: the comparison "|x| is ordered-less-than the pattern of +∞" answering 1 makes x real. -/
theorem real_of_cmp (x : Ideal .f32)
    (h : FloatOps.cmpf .olt (FloatOps.hostAbsf x) (FloatOps.ofBits (F := Ideal) .f32 0x7F800000#32) = 1#1) :
    ∃ r : ℝ, x = (r : EReal) := by
  rw [Ideal.hostAbsf_def, Ideal.cmpf_def, Ideal.absf_def, Ideal.ofBits_def, ofBits_pos_inf] at h
  refine real_of_abs_lt_top x ?_
  by_contra hn
  simp [Ideal.cmp, hn] at h

/-- The scalar shape has one index. -/
instance : Subsingleton S_.Idx := ⟨fun a b => funext fun d => d.elim0⟩

/-- The precondition answering 1 says every entry of both arrays is a real number. -/
theorem finite_of_pre [Facts] (A G : FVec Ideal S4x8192x3 .f32)
    (h : fn (F := Ideal) A G = (fun _ => 1#1)) :
    (∀ i, ∃ r : ℝ, A i = (r : EReal)) ∧ (∀ i, ∃ r : ℝ, G i = (r : EReal)) := by
  have h0 := congrFun h ValueIdx.ix0
  dsimp only [fn] at h0
  obtain ⟨hA, hG⟩ := IntOp.andi_eq_one.1 h0
  refine ⟨fun i => ?_, fun i => ?_⟩
  · exact real_of_cmp (A i) (Host.reduce_andi_all _ _ _ _ _ hA i)
  · exact real_of_cmp (G i) (Host.reduce_andi_all _ _ _ _ _ hG i)

end Cert.Pre_finite_inputs.Finite

end
-- ==== Proof.Bridge.lean ====
/-
  The reference's value is the common result.

  The reference's result at batch b is the Hausdorff number of the table clampSqrt (ex (a n) (g m)); the common
  result is clampSqrt of the Hausdorff number of the table sqd (a n) (g m). On real coordinates the expansion
  |a|² + |g|² − 2 a·g equals the sum of squared coordinate differences, and the clamped square root is monotone,
  so it passes through the minima and maxima: the two agree.
-/
import proofs.«168341_j11381663334571_2_alg».proof.Proof.RefValue
import proofs.«168341_j11381663334571_2_alg».proof.Proof.Laws
import proofs.«168341_j11381663334571_2_alg».proof.Proof.Result
import proofs.«168341_j11381663334571_2_alg».proof.Proof.Finite

noncomputable section

namespace Cert.ReferenceIdeal.RefValue

open Cert.ReferenceIdeal Cert.ReferenceIdeal.Gen Cert.ReferenceIdeal.Read Idealize.ShloMosaic Idealize.ShloMosaic.ValueIdx
  Cert.Hausdorff

/-- Over arrays of real numbers the reference's result is the common result: the monotone clamped square root
    moves inside the Hausdorff number, and entry by entry the expansion equals the squared distance. -/
theorem ref_eq_value (A G : FVec Ideal S4x8192x3 .f32) (hA : ∀ i, ∃ r : ℝ, A i = (r : EReal))
    (hG : ∀ i, ∃ r : ℝ, G i = (r : EReal)) :
    val_main_v20 (F := Ideal) A G = Cert.Hausdorff.hausdorffValue A G := by
  funext j
  obtain ⟨b, rfl⟩ : ∃ b : Fin 4, j = ix1 b := ⟨j 0, eq_ix1 j⟩
  rw [ref_value]
  unfold hausdorffValue
  rw [hdF_comp clampSqrt clampSqrt_mono]
  refine congrArg hdF (funext fun n => funext fun m => ?_)
  rw [ex_eq_sqd _ _ (fun k => hA _) (fun k => hG _)]

end Cert.ReferenceIdeal.RefValue

end
-- ==== Proof.Assembly.lean ====
/-
  The claims, joined.

  Each of the three programs runs and leaves its argument arrays unchanged. At the extended reals, from memories
  agreeing on the two coordinate arrays, the kernel and the reference end with equal results: the kernel's run
  ends at the common result (the hypothesis of the last theorem, stated exactly as that run's conclusion), and the
  reference's run ends at its own term, which over finite inputs (the precondition, decoded) is the common result.
-/
import proofs.«168341_j11381663334571_2_alg».proof.Defs
import proofs.«168341_j11381663334571_2_alg».proof.Proof.Gen.Kernel
import proofs.«168341_j11381663334571_2_alg».proof.Proof.Gen.Kernel.Frame
import proofs.«168341_j11381663334571_2_alg».proof.Proof.Gen.KernelIdeal
import proofs.«168341_j11381663334571_2_alg».proof.Proof.Gen.KernelIdeal.Frame
import proofs.«168341_j11381663334571_2_alg».proof.Proof.Gen.ReferenceIdeal
import proofs.«168341_j11381663334571_2_alg».proof.Proof.Gen.ReferenceIdeal.Run
import proofs.«168341_j11381663334571_2_alg».proof.Proof.Gen.Pre_finite_inputs
import proofs.«168341_j11381663334571_2_alg».proof.Proof.Bridge
import proofs.«168341_j11381663334571_2_alg».proof.Proof.Finite

noncomputable section

open Idealize.ShloMosaic Idealize.ShloMosaic.TcCoe Idealize.SL.Sem

namespace Cert.Proof.Claims

/-- The kernel runs and leaves its arguments unchanged. -/
theorem frame_k : Cert.frame_Kernel := fun m ρ _ => Cert.Kernel.Gen.frame m ρ

/-- The kernel read at the extended reals runs and leaves its arguments unchanged. -/
theorem frame_ki : Cert.frame_KernelIdeal := fun m ρ _ => Cert.KernelIdeal.Gen.frame m ρ

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Given that the kernel's run ends with the common result of its two argument arrays in its result array (and
    unchanged arguments), the kernel and the reference end with equal results from agreeing memories: the reference's
    run ends at its own term of its arguments, the arguments agree, and over finite entries that term is the common
    result. -/
theorem algebraic_of_run
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v5)
              = Cert.Hausdorff.hausdorffValue
                  (m ((c.tc : Thread Cert.KernelIdeal.nD Cert.KernelIdeal.τ).loc Cert.KernelIdeal.main_arg0))
                  (m ((c.tc : Thread Cert.KernelIdeal.nD Cert.KernelIdeal.τ).loc Cert.KernelIdeal.main_arg1))
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))) :
    Cert.algebraic_KernelIdeal_ReferenceIdeal := by
  intro m ρ m' ρ' hpre hagree
  refine ⟨fun c => Cert.Hausdorff.hausdorffValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), hrun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  exact Cert.ReferenceIdeal.RefValue.ref_eq_value _ _
    (Cert.Pre_finite_inputs.Finite.finite_of_pre _ _ (hpre c)).1
    (Cert.Pre_finite_inputs.Finite.finite_of_pre _ _ (hpre c)).2

end Cert.Proof.Claims

end
-- ==== Proof.Pieces.lean ====
/-
  What one run of the kernel body leaves in the three accumulators it carries from grid point to grid
  point — the running row minima, the running column minima and the running maximum — and, at a
  batch's last point, in the output block: each as a pure term of the two input blocks and of what
  the point before left. The body has five control cases (first point of a batch; first column tile
  of a later row tile; a middle column tile; the last column tile; the last point of a batch); in
  every case the row minima are stored whole, the column minima only over the current column tile,
  the running maximum only at the last column tile.
-/
import proofs.«168341_j11381663334571_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Column `o + x` of the column-minima row lies in the stored tile at position `x`: it reads the tile's payload there. -/
theorem col_read_mem {sp : Space} (v : View sig .tc sp S1x8192 .f32) (f : v.ty.Contents (Elt F)) {off : Fin 2 → ℕ}
    (inb : ∀ a, off a + S1x1024.size a ≤ S1x8192.size a) (w : (Rect.unit (s := S1x8192) off S1x1024.size inb).shape.Idx → Elt F .f32)
    (L : List (View.Piece (Elt F) S1x8192 .f32)) (o : ℕ) (ho : off = ![0, o]) (cc : Fin 8192) (x : Fin 1024) (hx : cc.val = o + x.val) :
    v.read (Elt F) (v.writes (Elt F) f ((⟨Rect.unit (s := S1x8192) off S1x1024.size inb, w⟩ : View.Piece (Elt F) S1x8192 .f32) :: L)) (ix2 0 cc) = w (ix2 0 x) :=
  View.read_writes_cons_unit_of_mem v f inb w L (ix2 0 cc) (ix2 0 x) ho (fun a => by
    match a with
    | ⟨0, _⟩ => rfl
    | ⟨1, _⟩ => exact hx)

/-- A column outside the stored tile reads what the earlier stores left. -/
theorem col_read_not_mem {sp : Space} (v : View sig .tc sp S1x8192 .f32) (f : v.ty.Contents (Elt F)) {off : Fin 2 → ℕ}
    (inb : ∀ a, off a + S1x1024.size a ≤ S1x8192.size a) (w : (Rect.unit (s := S1x8192) off S1x1024.size inb).shape.Idx → Elt F .f32)
    (L : List (View.Piece (Elt F) S1x8192 .f32)) (o : ℕ) (ho : off = ![0, o]) (cc : Fin 8192) (hx : cc.val < o ∨ o + 1024 ≤ cc.val) :
    v.read (Elt F) (v.writes (Elt F) f ((⟨Rect.unit (s := S1x8192) off S1x1024.size inb, w⟩ : View.Piece (Elt F) S1x8192 .f32) :: L)) (ix2 0 cc)
      = v.read (Elt F) (v.writes (Elt F) f L) (ix2 0 cc) :=
  View.read_writes_cons_unit_of_not_mem v f inb w L (ix2 0 cc) ho (1 : Fin 2) hx

/-- The loaded column tile at position `x` is the row's entry at column `o + x`. -/
theorem ld_col (X : S1x8192.Idx → Elt F .f32) {off : Fin 2 → ℕ} (inb : ∀ a, off a + S1x1024.size a ≤ S1x8192.size a)
    (o : ℕ) (ho : off = ![0, o]) (cc : Fin 8192) (x : Fin 1024) (u : Fin 1) (hx : cc.val = o + x.val) :
    View.ld X (Rect.unit (s := S1x8192) off S1x1024.size inb) (ix2 u x) = X (ix2 0 cc) := by
  subst ho
  show X _ = X _
  refine congrArg X (funext fun a => Fin.ext ?_)
  match a with
  | ⟨0, _⟩ => show 0 + 1 * u.val = 0; omega
  | ⟨1, _⟩ => show o + 1 * x.val = cc.val; omega

/-! ## Case A -/

/-- The running row minima after a point of case A: the stored minimum of what was there (the reset value) and the tile's row minima. -/
theorem row_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : cond0_0 i) (hc1 : cond0_1 i) (hc2 : ¬cond0_2 i) (hc3 : ¬cond0_3 i) (x0 : Vec F S1x2048x3 .f32) (x1 : Vec F S1x3x1024 .f32) :
    sout0_A_0 c i arg3 harg3 arg4 harg4 arg5 harg5 arg6 harg6 arg7 harg7 arg8 harg8 hc0 hc1 hc2 hc3 x0 x1 = k0_pay1 (k0_pay9 x0 x1 k0_pay7) := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_words
  rw [View.canon_cons_unit_zero (S := S2048x1) hz2, View.readCov_unit_zero (S := S2048x1) _ hz2]
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]

/-- The running column minima after the first point of a batch, inside the first column tile: the tile's column minima against the reset value. -/
theorem col_A_mem (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : cond0_0 i) (hc1 : cond0_1 i) (hc2 : ¬cond0_2 i) (hc3 : ¬cond0_3 i) (x0 : Vec F S1x2048x3 .f32) (x1 : Vec F S1x3x1024 .f32) (o : ℕ) (ho : k0_off1 i = ![0, o]) (cc : Fin 8192) (x : Fin 1024) (hx : cc.val = o + x.val) :
    sout0_A_1 c i arg3 harg3 arg4 harg4 arg5 harg5 arg6 harg6 arg7 harg7 arg8 harg8 hc0 hc1 hc2 hc3 x0 x1 (ix2 0 cc)
      = k0_pay2 (k0_pay8 x0 x1) (View.ld k0_pay6 (Rect.unit (s := S1x8192) (k0_off1 i) S1x1024.size (k0_off1_inb i))) (ix2 0 x) := by
  unfold sout0_A_1
  unfold kernelRun0_A
  dsimp only
  sl_unfold_words
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]
  refine (col_read_mem VS0_1 _ _ _ _ o ho cc x hx).trans ?_
  rw [View.read_writes_junk_eq_canon, View.canon_unit_zero hz2]

/-- Outside the first column tile the column minima hold the reset value. -/
theorem col_A_not_mem (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : cond0_0 i) (hc1 : cond0_1 i) (hc2 : ¬cond0_2 i) (hc3 : ¬cond0_3 i) (x0 : Vec F S1x2048x3 .f32) (x1 : Vec F S1x3x1024 .f32) (o : ℕ) (ho : k0_off1 i = ![0, o]) (cc : Fin 8192) (hx : cc.val < o ∨ o + 1024 ≤ cc.val) :
    sout0_A_1 c i arg3 harg3 arg4 harg4 arg5 harg5 arg6 harg6 arg7 harg7 arg8 harg8 hc0 hc1 hc2 hc3 x0 x1 (ix2 0 cc) = k0_pay6 (F := F) (ix2 0 cc) := by
  unfold sout0_A_1
  unfold kernelRun0_A
  dsimp only
  sl_unfold_words
  refine (col_read_not_mem VS0_1 _ _ _ _ o ho cc hx).trans ?_
  rw [View.read_writes_junk_eq_canon, View.canon_unit_zero hz2]

/-- The running maximum after the first point of a batch: the reset value. -/
theorem run_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : cond0_0 i) (hc1 : cond0_1 i) (hc2 : ¬cond0_2 i) (hc3 : ¬cond0_3 i) (x0 : Vec F S1x2048x3 .f32) (x1 : Vec F S1x3x1024 .f32) : sout0_A_2 c i arg3 harg3 arg4 harg4 arg5 harg5 arg6 harg6 arg7 harg7 arg8 harg8 hc0 hc1 hc2 hc3 x0 x1 = k0_pay5 := by
  unfold sout0_A_2
  rw [View.read_writes_eq_canon _ _ _ (scover0_A_2 c i arg3 harg3 arg4 harg4 arg5 harg5 arg6 harg6 arg7 harg7 arg8 harg8 hc0 hc1 hc2 hc3 x0 x1)]
  unfold kernelRun0_A
  dsimp only
  sl_unfold_words
  rw [View.canon_unit_zero hz2]

/-! ## Case B -/

/-- The running row minima after a point of case B: the stored minimum of what was there (the point before's) and the tile's row minima. -/
theorem row_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : ¬cond0_2 i) (hc3 : ¬cond0_3 i) (x0 : Vec F S1x2048x3 .f32) (x1 : Vec F S1x3x1024 .f32) (xs0 : Vec F S2048x1 .f32) (xs1 : Vec F S1x8192 .f32) (xs2 : Vec F S1x1 .f32) :
    sout0_B_0 c i arg3 harg3 arg4 harg4 arg5 harg5 arg6 harg6 arg7 harg7 arg8 harg8 hc0 hc1 hc2 hc3 x0 x1 xs0 xs1 xs2 = k0_pay1 (k0_pay9 x0 x1 xs0) := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1 xs2)]
  unfold kernelRun0_B
  dsimp only
  sl_unfold_words
  rw [View.canon_unit_zero hz2]
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]

/-- The running column minima after a point of case B, inside the current column tile. -/
theorem col_B_mem (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : ¬cond0_2 i) (hc3 : ¬cond0_3 i) (x0 : Vec F S1x2048x3 .f32) (x1 : Vec F S1x3x1024 .f32) (xs0 : Vec F S2048x1 .f32) (xs1 : Vec F S1x8192 .f32) (xs2 : Vec F S1x1 .f32) (o : ℕ) (ho : k0_off1 i = ![0, o]) (cc : Fin 8192) (x : Fin 1024) (hx : cc.val = o + x.val) :
    sout0_B_1 c i arg3 harg3 arg4 harg4 arg5 harg5 arg6 harg6 arg7 harg7 arg8 harg8 hc0 hc1 hc2 hc3 x0 x1 xs0 xs1 xs2 (ix2 0 cc)
      = k0_pay2 (k0_pay8 x0 x1) (View.ld xs1 (Rect.unit (s := S1x8192) (k0_off1 i) S1x1024.size (k0_off1_inb i))) (ix2 0 x) := by
  unfold sout0_B_1
  unfold kernelRun0_B
  dsimp only
  sl_unfold_words
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]
  exact col_read_mem arg7.view _ _ _ [] o ho cc x hx

/-- The running column minima after a point of case B, outside the current column tile: unchanged. -/
theorem col_B_not_mem (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : ¬cond0_2 i) (hc3 : ¬cond0_3 i) (x0 : Vec F S1x2048x3 .f32) (x1 : Vec F S1x3x1024 .f32) (xs0 : Vec F S2048x1 .f32) (xs1 : Vec F S1x8192 .f32) (xs2 : Vec F S1x1 .f32) (o : ℕ) (ho : k0_off1 i = ![0, o]) (cc : Fin 8192) (hx : cc.val < o ∨ o + 1024 ≤ cc.val) :
    sout0_B_1 c i arg3 harg3 arg4 harg4 arg5 harg5 arg6 harg6 arg7 harg7 arg8 harg8 hc0 hc1 hc2 hc3 x0 x1 xs0 xs1 xs2 (ix2 0 cc) = xs1 (ix2 0 cc) := by
  unfold sout0_B_1
  unfold kernelRun0_B
  dsimp only
  sl_unfold_words
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]
  refine (col_read_not_mem arg7.view _ _ _ [] o ho cc hx).trans ?_
  rw [View.writes_nil, harg7.read_unread]

/-! ## Case C -/

/-- The running row minima after a point of case C: the stored minimum of what was there (the point before's) and the tile's row minima. -/
theorem row_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : cond0_2 i) (hc3 : ¬cond0_3 i) (x0 : Vec F S1x2048x3 .f32) (x1 : Vec F S1x3x1024 .f32) (xs0 : Vec F S2048x1 .f32) (xs1 : Vec F S1x8192 .f32) (xs2 : Vec F S1x1 .f32) :
    sout0_C_0 c i arg3 harg3 arg4 harg4 arg5 harg5 arg6 harg6 arg7 harg7 arg8 harg8 hc0 hc1 hc2 hc3 x0 x1 xs0 xs1 xs2 = k0_pay1 (k0_pay9 x0 x1 xs0) := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1 xs2)]
  unfold kernelRun0_C
  dsimp only
  sl_unfold_words
  rw [View.canon_unit_zero hz2]
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]

/-- The running column minima after a point of case C, inside the current column tile. -/
theorem col_C_mem (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : cond0_2 i) (hc3 : ¬cond0_3 i) (x0 : Vec F S1x2048x3 .f32) (x1 : Vec F S1x3x1024 .f32) (xs0 : Vec F S2048x1 .f32) (xs1 : Vec F S1x8192 .f32) (xs2 : Vec F S1x1 .f32) (o : ℕ) (ho : k0_off1 i = ![0, o]) (cc : Fin 8192) (x : Fin 1024) (hx : cc.val = o + x.val) :
    sout0_C_1 c i arg3 harg3 arg4 harg4 arg5 harg5 arg6 harg6 arg7 harg7 arg8 harg8 hc0 hc1 hc2 hc3 x0 x1 xs0 xs1 xs2 (ix2 0 cc)
      = k0_pay2 (k0_pay8 x0 x1) (View.ld xs1 (Rect.unit (s := S1x8192) (k0_off1 i) S1x1024.size (k0_off1_inb i))) (ix2 0 x) := by
  unfold sout0_C_1
  unfold kernelRun0_C
  dsimp only
  sl_unfold_words
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]
  exact col_read_mem arg7.view _ _ _ [] o ho cc x hx

/-- The running column minima after a point of case C, outside the current column tile: unchanged. -/
theorem col_C_not_mem (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : cond0_2 i) (hc3 : ¬cond0_3 i) (x0 : Vec F S1x2048x3 .f32) (x1 : Vec F S1x3x1024 .f32) (xs0 : Vec F S2048x1 .f32) (xs1 : Vec F S1x8192 .f32) (xs2 : Vec F S1x1 .f32) (o : ℕ) (ho : k0_off1 i = ![0, o]) (cc : Fin 8192) (hx : cc.val < o ∨ o + 1024 ≤ cc.val) :
    sout0_C_1 c i arg3 harg3 arg4 harg4 arg5 harg5 arg6 harg6 arg7 harg7 arg8 harg8 hc0 hc1 hc2 hc3 x0 x1 xs0 xs1 xs2 (ix2 0 cc) = xs1 (ix2 0 cc) := by
  unfold sout0_C_1
  unfold kernelRun0_C
  dsimp only
  sl_unfold_words
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]
  refine (col_read_not_mem arg7.view _ _ _ [] o ho cc hx).trans ?_
  rw [View.writes_nil, harg7.read_unread]

/-- The running maximum after a last column tile: the larger of what was there and the largest of the new row minima. -/
theorem run_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : cond0_2 i) (hc3 : ¬cond0_3 i) (x0 : Vec F S1x2048x3 .f32) (x1 : Vec F S1x3x1024 .f32) (xs0 : Vec F S2048x1 .f32) (xs1 : Vec F S1x8192 .f32) (xs2 : Vec F S1x1 .f32) : sout0_C_2 c i arg3 harg3 arg4 harg4 arg5 harg5 arg6 harg6 arg7 harg7 arg8 harg8 hc0 hc1 hc2 hc3 x0 x1 xs0 xs1 xs2 = k0_pay3 (k0_pay1 (k0_pay9 x0 x1 xs0)) xs2 := by
  unfold sout0_C_2
  rw [View.read_writes_eq_canon _ _ _ (scover0_C_2 c i arg3 harg3 arg4 harg4 arg5 harg5 arg6 harg6 arg7 harg7 arg8 harg8 hc0 hc1 hc2 hc3 x0 x1 xs0 xs1 xs2)]
  unfold kernelRun0_C
  dsimp only
  sl_unfold_words
  rw [View.canon_unit_zero hz2, View.readCov_unit_zero (S := S2048x1) _ hz2]
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]

/-! ## Case D -/

/-- The running row minima after a point of case D: the stored minimum of what was there (the reset value) and the tile's row minima. -/
theorem row_D (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : cond0_1 i) (hc2 : ¬cond0_2 i) (hc3 : ¬cond0_3 i) (x0 : Vec F S1x2048x3 .f32) (x1 : Vec F S1x3x1024 .f32) (xs1 : Vec F S1x8192 .f32) (xs2 : Vec F S1x1 .f32) :
    sout0_D_0 c i arg3 harg3 arg4 harg4 arg5 harg5 arg6 harg6 arg7 harg7 arg8 harg8 hc0 hc1 hc2 hc3 x0 x1 xs1 xs2 = k0_pay1 (k0_pay9 x0 x1 k0_pay7) := by
  unfold sout0_D_0
  rw [View.read_writes_eq_canon _ _ _ (scover0_D_0 c i arg3 harg3 arg4 harg4 arg5 harg5 arg6 harg6 arg7 harg7 arg8 harg8 hc0 hc1 hc2 hc3 x0 x1 xs1 xs2)]
  unfold kernelRun0_D
  dsimp only
  sl_unfold_words
  rw [View.canon_cons_unit_zero (S := S2048x1) hz2, View.readCov_unit_zero (S := S2048x1) _ hz2]
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]

/-- The running column minima after a point of case D, inside the current column tile. -/
theorem col_D_mem (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : cond0_1 i) (hc2 : ¬cond0_2 i) (hc3 : ¬cond0_3 i) (x0 : Vec F S1x2048x3 .f32) (x1 : Vec F S1x3x1024 .f32) (xs1 : Vec F S1x8192 .f32) (xs2 : Vec F S1x1 .f32) (o : ℕ) (ho : k0_off1 i = ![0, o]) (cc : Fin 8192) (x : Fin 1024) (hx : cc.val = o + x.val) :
    sout0_D_1 c i arg3 harg3 arg4 harg4 arg5 harg5 arg6 harg6 arg7 harg7 arg8 harg8 hc0 hc1 hc2 hc3 x0 x1 xs1 xs2 (ix2 0 cc)
      = k0_pay2 (k0_pay8 x0 x1) (View.ld xs1 (Rect.unit (s := S1x8192) (k0_off1 i) S1x1024.size (k0_off1_inb i))) (ix2 0 x) := by
  unfold sout0_D_1
  unfold kernelRun0_D
  dsimp only
  sl_unfold_words
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]
  exact col_read_mem arg7.view _ _ _ [] o ho cc x hx

/-- The running column minima after a point of case D, outside the current column tile: unchanged. -/
theorem col_D_not_mem (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : cond0_1 i) (hc2 : ¬cond0_2 i) (hc3 : ¬cond0_3 i) (x0 : Vec F S1x2048x3 .f32) (x1 : Vec F S1x3x1024 .f32) (xs1 : Vec F S1x8192 .f32) (xs2 : Vec F S1x1 .f32) (o : ℕ) (ho : k0_off1 i = ![0, o]) (cc : Fin 8192) (hx : cc.val < o ∨ o + 1024 ≤ cc.val) :
    sout0_D_1 c i arg3 harg3 arg4 harg4 arg5 harg5 arg6 harg6 arg7 harg7 arg8 harg8 hc0 hc1 hc2 hc3 x0 x1 xs1 xs2 (ix2 0 cc) = xs1 (ix2 0 cc) := by
  unfold sout0_D_1
  unfold kernelRun0_D
  dsimp only
  sl_unfold_words
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]
  refine (col_read_not_mem arg7.view _ _ _ [] o ho cc hx).trans ?_
  rw [View.writes_nil, harg7.read_unread]

/-! ## Case E -/

/-- The running row minima after a point of case E: the stored minimum of what was there (the point before's) and the tile's row minima. -/
theorem row_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i) (x0 : Vec F S1x2048x3 .f32) (x1 : Vec F S1x3x1024 .f32) (xs0 : Vec F S2048x1 .f32) (xs1 : Vec F S1x8192 .f32) (xs2 : Vec F S1x1 .f32) :
    sout0_E_0 c i arg3 harg3 arg4 harg4 arg5 harg5 arg6 harg6 arg7 harg7 arg8 harg8 hc0 hc1 hc2 hc3 x0 x1 xs0 xs1 xs2 = k0_pay1 (k0_pay9 x0 x1 xs0) := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1 xs2)]
  unfold kernelRun0_E
  dsimp only
  sl_unfold_words
  rw [View.canon_unit_zero hz2]
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]

/-- The running column minima after a point of case E, inside the current column tile. -/
theorem col_E_mem (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i) (x0 : Vec F S1x2048x3 .f32) (x1 : Vec F S1x3x1024 .f32) (xs0 : Vec F S2048x1 .f32) (xs1 : Vec F S1x8192 .f32) (xs2 : Vec F S1x1 .f32) (o : ℕ) (ho : k0_off1 i = ![0, o]) (cc : Fin 8192) (x : Fin 1024) (hx : cc.val = o + x.val) :
    sout0_E_1 c i arg3 harg3 arg4 harg4 arg5 harg5 arg6 harg6 arg7 harg7 arg8 harg8 hc0 hc1 hc2 hc3 x0 x1 xs0 xs1 xs2 (ix2 0 cc)
      = k0_pay2 (k0_pay8 x0 x1) (View.ld xs1 (Rect.unit (s := S1x8192) (k0_off1 i) S1x1024.size (k0_off1_inb i))) (ix2 0 x) := by
  unfold sout0_E_1
  unfold kernelRun0_E
  dsimp only
  sl_unfold_words
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]
  exact col_read_mem arg7.view _ _ _ [] o ho cc x hx

/-- The running column minima after a point of case E, outside the current column tile: unchanged. -/
theorem col_E_not_mem (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i) (x0 : Vec F S1x2048x3 .f32) (x1 : Vec F S1x3x1024 .f32) (xs0 : Vec F S2048x1 .f32) (xs1 : Vec F S1x8192 .f32) (xs2 : Vec F S1x1 .f32) (o : ℕ) (ho : k0_off1 i = ![0, o]) (cc : Fin 8192) (hx : cc.val < o ∨ o + 1024 ≤ cc.val) :
    sout0_E_1 c i arg3 harg3 arg4 harg4 arg5 harg5 arg6 harg6 arg7 harg7 arg8 harg8 hc0 hc1 hc2 hc3 x0 x1 xs0 xs1 xs2 (ix2 0 cc) = xs1 (ix2 0 cc) := by
  unfold sout0_E_1
  unfold kernelRun0_E
  dsimp only
  sl_unfold_words
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]
  refine (col_read_not_mem arg7.view _ _ _ [] o ho cc hx).trans ?_
  rw [View.writes_nil, harg7.read_unread]

/-- The running maximum after a last column tile: the larger of what was there and the largest of the new row minima. -/
theorem run_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i) (x0 : Vec F S1x2048x3 .f32) (x1 : Vec F S1x3x1024 .f32) (xs0 : Vec F S2048x1 .f32) (xs1 : Vec F S1x8192 .f32) (xs2 : Vec F S1x1 .f32) : sout0_E_2 c i arg3 harg3 arg4 harg4 arg5 harg5 arg6 harg6 arg7 harg7 arg8 harg8 hc0 hc1 hc2 hc3 x0 x1 xs0 xs1 xs2 = k0_pay3 (k0_pay1 (k0_pay9 x0 x1 xs0)) xs2 := by
  unfold sout0_E_2
  rw [View.read_writes_eq_canon _ _ _ (scover0_E_2 c i arg3 harg3 arg4 harg4 arg5 harg5 arg6 harg6 arg7 harg7 arg8 harg8 hc0 hc1 hc2 hc3 x0 x1 xs0 xs1 xs2)]
  unfold kernelRun0_E
  dsimp only
  sl_unfold_words
  rw [View.canon_unit_zero hz2, View.readCov_unit_zero (S := S2048x1) _ hz2]
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]

/-- The output block at a batch's last point: the larger of the new running maximum and the largest of the new column minima. -/
theorem out_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S1x8192 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i) (x0 : Vec F S1x2048x3 .f32) (x1 : Vec F S1x3x1024 .f32) (xs0 : Vec F S2048x1 .f32) (xs1 : Vec F S1x8192 .f32) (xs2 : Vec F S1x1 .f32) :
    out0_E_2 c i arg3 harg3 arg4 harg4 arg5 harg5 arg6 harg6 arg7 harg7 arg8 harg8 hc0 hc1 hc2 hc3 x0 x1 xs0 xs1 xs2 = k0_pay4 (sout0_E_1 c i arg3 harg3 arg4 harg4 arg5 harg5 arg6 harg6 arg7 harg7 arg8 harg8 hc0 hc1 hc2 hc3 x0 x1 xs0 xs1 xs2) (k0_pay3 (k0_pay1 (k0_pay9 x0 x1 xs0)) xs2) := by
  unfold out0_E_2 sout0_E_1
  rw [View.read_writes_eq_canon _ _ _ (cover0_E_2 c i arg3 harg3 arg4 harg4 arg5 harg5 arg6 harg6 arg7 harg7 arg8 harg8 hc0 hc1 hc2 hc3 x0 x1 xs0 xs1 xs2)]
  unfold kernelRun0_E
  dsimp only
  sl_unfold_words
  rw [View.canon_unit_zero hz3, View.readCov_unit_zero (S := S1x1) _ hz2, View.readCov_unit_zero (S := S2048x1) _ hz2]
  simp only [View.readAt_eq_ld, harg3.read_unread, harg4.read_unread, harg6.read_unread, harg7.read_unread, harg8.read_unread, View.ld_unit_zero (S := S1x2048x3) hz3, View.ld_unit_zero (S := S1x3x1024) hz3, View.ld_unit_zero (S := S2048x1) hz2, View.ld_unit_zero (S := S1x1) hz2, View.ld_unit_zero (S := S1x8192) hz2]

end Cert.KernelIdeal.HValue

end
-- ==== Proof.Cases.lean ====
/-
  What the three carried accumulators and the output block hold after a grid point, in terms of what
  they held after the point before, whichever of the body's five control cases the point falls in:
  the row minima are reset at a first column tile and accumulated otherwise; the column minima are
  reset at a batch's first point and accumulated (over the current column tile only) otherwise; the
  running maximum is reset at a batch's first point, updated at a last column tile and kept otherwise;
  the output block is written at a batch's last point.
-/
import proofs.«168341_j11381663334571_2_alg».proof.Proof.Pieces

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Idealize.ShloMosaic.ValueIdx

variable {F : FTy → Type} [FloatOps F]
variable (m : (ℓ : Loc nD τ sig) → Buf (Elt F) ℓ) (c : Dev nD)

/-- At a first column tile the row minima start from the reset value. -/
theorem row_reset (T : Fin cfg0.N) (hm : T.val % 8 = 0) :
    (outsAt0 m c T.val T.isLt).2.1 = k0_pay1 (k0_pay9 (iblk m c 0 T) (iblk m c 1 T) k0_pay7) := by
  have hN : T.val < 128 := lt_of_lt_of_eq T.isLt (show cfg0.N = 128 from N_0)
  by_cases h0 : T.val % 32 = 0
  · have h1 : T.val % 8 = 0 := by omega
    have h2 : ¬T.val % 8 = 7 := by omega
    have h3 : ¬T.val % 32 = 31 := by omega
    rw [outsAt0_A m c T h0 h1 h2 h3]
    dsimp only
    exact row_A c (grid0.coords T) (ms0_0 T) (hs0_0 T) (ms0_1 T) (hs0_1 T) (ms0_2 T) (hs0_2 T) scM0_0 (Memref.isWhole_whole _) scM0_1 (Memref.isWhole_whole _) scM0_2 (Memref.isWhole_whole _) ((hcond0_0 T).mpr h0) ((hcond0_1 T).mpr h1) (fun h => h2 ((hcond0_2 T).mp h)) (fun h => h3 ((hcond0_3 T).mp h)) (iblk m c 0 T) (iblk m c 1 T)
  · by_cases h1 : T.val % 8 = 0
    · have h2 : ¬T.val % 8 = 7 := by omega
      have h3 : ¬T.val % 32 = 31 := by omega
      rw [outsAt0_D m c T h0 h1 h2 h3]
      dsimp only
      exact row_D c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) ((hcond0_1 T).mpr h1) (fun h => h2 ((hcond0_2 T).mp h)) (fun h => h3 ((hcond0_3 T).mp h)) (iblk m c 0 T) (iblk m c 1 T) (outsAt0 m c (T.val - 1) (Nat.lt_of_le_of_lt (Nat.sub_le _ _) T.isLt)).2.2.1 (outsAt0 m c (T.val - 1) (Nat.lt_of_le_of_lt (Nat.sub_le _ _) T.isLt)).2.2.2
    · by_cases h2 : T.val % 8 = 7
      · by_cases h3 : T.val % 32 = 31
        · exfalso; omega
        · exfalso; omega
      · have h3 : ¬T.val % 32 = 31 := by omega
        exfalso; omega

/-- At a later column tile the row minima accumulate onto the point before's. -/
theorem row_acc (T : Fin cfg0.N) (hm : ¬T.val % 8 = 0) :
    (outsAt0 m c T.val T.isLt).2.1 = k0_pay1 (k0_pay9 (iblk m c 0 T) (iblk m c 1 T) (outsAt0 m c (T.val - 1) (Nat.lt_of_le_of_lt (Nat.sub_le _ _) T.isLt)).2.1) := by
  have hN : T.val < 128 := lt_of_lt_of_eq T.isLt (show cfg0.N = 128 from N_0)
  by_cases h0 : T.val % 32 = 0
  · have h1 : T.val % 8 = 0 := by omega
    have h2 : ¬T.val % 8 = 7 := by omega
    have h3 : ¬T.val % 32 = 31 := by omega
    exfalso; omega
  · by_cases h1 : T.val % 8 = 0
    · have h2 : ¬T.val % 8 = 7 := by omega
      have h3 : ¬T.val % 32 = 31 := by omega
      exfalso; omega
    · by_cases h2 : T.val % 8 = 7
      · by_cases h3 : T.val % 32 = 31
        · rw [outsAt0_E m c T h0 h1 h2 h3]
          dsimp only
          exact row_E c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) ((hcond0_2 T).mpr h2) ((hcond0_3 T).mpr h3) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2
        · rw [outsAt0_C m c T h0 h1 h2 h3]
          dsimp only
          exact row_C c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) ((hcond0_2 T).mpr h2) (fun h => h3 ((hcond0_3 T).mp h)) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2
      · have h3 : ¬T.val % 32 = 31 := by omega
        rw [outsAt0_B m c T h0 h1 h2 h3]
        dsimp only
        exact row_B c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) (fun h => h2 ((hcond0_2 T).mp h)) (fun h => h3 ((hcond0_3 T).mp h)) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2

/-- At a batch's first point the column minima inside the first column tile start from the reset value. -/
theorem col_reset_mem (T : Fin cfg0.N) (h32 : T.val % 32 = 0) (o : ℕ) (ho : k0_off1 (grid0.coords T) = ![0, o]) (cc : Fin 8192) (x : Fin 1024) (hx : cc.val = o + x.val) :
    (outsAt0 m c T.val T.isLt).2.2.1 (ix2 0 cc) = k0_pay2 (k0_pay8 (iblk m c 0 T) (iblk m c 1 T)) (View.ld k0_pay6 (Rect.unit (s := S1x8192) (k0_off1 (grid0.coords T)) S1x1024.size (k0_off1_inb (grid0.coords T)))) (ix2 0 x) := by
  have hN : T.val < 128 := lt_of_lt_of_eq T.isLt (show cfg0.N = 128 from N_0)
  by_cases h0 : T.val % 32 = 0
  · have h1 : T.val % 8 = 0 := by omega
    have h2 : ¬T.val % 8 = 7 := by omega
    have h3 : ¬T.val % 32 = 31 := by omega
    rw [outsAt0_A m c T h0 h1 h2 h3]
    dsimp only
    exact col_A_mem c (grid0.coords T) (ms0_0 T) (hs0_0 T) (ms0_1 T) (hs0_1 T) (ms0_2 T) (hs0_2 T) scM0_0 (Memref.isWhole_whole _) scM0_1 (Memref.isWhole_whole _) scM0_2 (Memref.isWhole_whole _) ((hcond0_0 T).mpr h0) ((hcond0_1 T).mpr h1) (fun h => h2 ((hcond0_2 T).mp h)) (fun h => h3 ((hcond0_3 T).mp h)) (iblk m c 0 T) (iblk m c 1 T) o ho cc x hx
  · by_cases h1 : T.val % 8 = 0
    · have h2 : ¬T.val % 8 = 7 := by omega
      have h3 : ¬T.val % 32 = 31 := by omega
      exfalso; omega
    · by_cases h2 : T.val % 8 = 7
      · by_cases h3 : T.val % 32 = 31
        · exfalso; omega
        · exfalso; omega
      · have h3 : ¬T.val % 32 = 31 := by omega
        exfalso; omega

/-- … and outside it they hold the reset value. -/
theorem col_reset_not_mem (T : Fin cfg0.N) (h32 : T.val % 32 = 0) (o : ℕ) (ho : k0_off1 (grid0.coords T) = ![0, o]) (cc : Fin 8192) (hx : cc.val < o ∨ o + 1024 ≤ cc.val) :
    (outsAt0 m c T.val T.isLt).2.2.1 (ix2 0 cc) = k0_pay6 (F := F) (ix2 0 cc) := by
  have hN : T.val < 128 := lt_of_lt_of_eq T.isLt (show cfg0.N = 128 from N_0)
  by_cases h0 : T.val % 32 = 0
  · have h1 : T.val % 8 = 0 := by omega
    have h2 : ¬T.val % 8 = 7 := by omega
    have h3 : ¬T.val % 32 = 31 := by omega
    rw [outsAt0_A m c T h0 h1 h2 h3]
    dsimp only
    exact col_A_not_mem c (grid0.coords T) (ms0_0 T) (hs0_0 T) (ms0_1 T) (hs0_1 T) (ms0_2 T) (hs0_2 T) scM0_0 (Memref.isWhole_whole _) scM0_1 (Memref.isWhole_whole _) scM0_2 (Memref.isWhole_whole _) ((hcond0_0 T).mpr h0) ((hcond0_1 T).mpr h1) (fun h => h2 ((hcond0_2 T).mp h)) (fun h => h3 ((hcond0_3 T).mp h)) (iblk m c 0 T) (iblk m c 1 T) o ho cc hx
  · by_cases h1 : T.val % 8 = 0
    · have h2 : ¬T.val % 8 = 7 := by omega
      have h3 : ¬T.val % 32 = 31 := by omega
      exfalso; omega
    · by_cases h2 : T.val % 8 = 7
      · by_cases h3 : T.val % 32 = 31
        · exfalso; omega
        · exfalso; omega
      · have h3 : ¬T.val % 32 = 31 := by omega
        exfalso; omega

/-- At any later point the column minima inside the current column tile accumulate onto the point before's. -/
theorem col_acc_mem (T : Fin cfg0.N) (h32 : ¬T.val % 32 = 0) (o : ℕ) (ho : k0_off1 (grid0.coords T) = ![0, o]) (cc : Fin 8192) (x : Fin 1024) (hx : cc.val = o + x.val) :
    (outsAt0 m c T.val T.isLt).2.2.1 (ix2 0 cc) = k0_pay2 (k0_pay8 (iblk m c 0 T) (iblk m c 1 T)) (View.ld (outsAt0 m c (T.val - 1) (Nat.lt_of_le_of_lt (Nat.sub_le _ _) T.isLt)).2.2.1 (Rect.unit (s := S1x8192) (k0_off1 (grid0.coords T)) S1x1024.size (k0_off1_inb (grid0.coords T)))) (ix2 0 x) := by
  have hN : T.val < 128 := lt_of_lt_of_eq T.isLt (show cfg0.N = 128 from N_0)
  by_cases h0 : T.val % 32 = 0
  · have h1 : T.val % 8 = 0 := by omega
    have h2 : ¬T.val % 8 = 7 := by omega
    have h3 : ¬T.val % 32 = 31 := by omega
    exfalso; omega
  · by_cases h1 : T.val % 8 = 0
    · have h2 : ¬T.val % 8 = 7 := by omega
      have h3 : ¬T.val % 32 = 31 := by omega
      rw [outsAt0_D m c T h0 h1 h2 h3]
      dsimp only
      exact col_D_mem c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) ((hcond0_1 T).mpr h1) (fun h => h2 ((hcond0_2 T).mp h)) (fun h => h3 ((hcond0_3 T).mp h)) (iblk m c 0 T) (iblk m c 1 T) (outsAt0 m c (T.val - 1) (Nat.lt_of_le_of_lt (Nat.sub_le _ _) T.isLt)).2.2.1 (outsAt0 m c (T.val - 1) (Nat.lt_of_le_of_lt (Nat.sub_le _ _) T.isLt)).2.2.2 o ho cc x hx
    · by_cases h2 : T.val % 8 = 7
      · by_cases h3 : T.val % 32 = 31
        · rw [outsAt0_E m c T h0 h1 h2 h3]
          dsimp only
          exact col_E_mem c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) ((hcond0_2 T).mpr h2) ((hcond0_3 T).mpr h3) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2 o ho cc x hx
        · rw [outsAt0_C m c T h0 h1 h2 h3]
          dsimp only
          exact col_C_mem c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) ((hcond0_2 T).mpr h2) (fun h => h3 ((hcond0_3 T).mp h)) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2 o ho cc x hx
      · have h3 : ¬T.val % 32 = 31 := by omega
        rw [outsAt0_B m c T h0 h1 h2 h3]
        dsimp only
        exact col_B_mem c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) (fun h => h2 ((hcond0_2 T).mp h)) (fun h => h3 ((hcond0_3 T).mp h)) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2 o ho cc x hx

/-- … and outside it they are the point before's. -/
theorem col_acc_not_mem (T : Fin cfg0.N) (h32 : ¬T.val % 32 = 0) (o : ℕ) (ho : k0_off1 (grid0.coords T) = ![0, o]) (cc : Fin 8192) (hx : cc.val < o ∨ o + 1024 ≤ cc.val) :
    (outsAt0 m c T.val T.isLt).2.2.1 (ix2 0 cc) = (outsAt0 m c (T.val - 1) (Nat.lt_of_le_of_lt (Nat.sub_le _ _) T.isLt)).2.2.1 (ix2 0 cc) := by
  have hN : T.val < 128 := lt_of_lt_of_eq T.isLt (show cfg0.N = 128 from N_0)
  by_cases h0 : T.val % 32 = 0
  · have h1 : T.val % 8 = 0 := by omega
    have h2 : ¬T.val % 8 = 7 := by omega
    have h3 : ¬T.val % 32 = 31 := by omega
    exfalso; omega
  · by_cases h1 : T.val % 8 = 0
    · have h2 : ¬T.val % 8 = 7 := by omega
      have h3 : ¬T.val % 32 = 31 := by omega
      rw [outsAt0_D m c T h0 h1 h2 h3]
      dsimp only
      exact col_D_not_mem c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) ((hcond0_1 T).mpr h1) (fun h => h2 ((hcond0_2 T).mp h)) (fun h => h3 ((hcond0_3 T).mp h)) (iblk m c 0 T) (iblk m c 1 T) (outsAt0 m c (T.val - 1) (Nat.lt_of_le_of_lt (Nat.sub_le _ _) T.isLt)).2.2.1 (outsAt0 m c (T.val - 1) (Nat.lt_of_le_of_lt (Nat.sub_le _ _) T.isLt)).2.2.2 o ho cc hx
    · by_cases h2 : T.val % 8 = 7
      · by_cases h3 : T.val % 32 = 31
        · rw [outsAt0_E m c T h0 h1 h2 h3]
          dsimp only
          exact col_E_not_mem c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) ((hcond0_2 T).mpr h2) ((hcond0_3 T).mpr h3) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2 o ho cc hx
        · rw [outsAt0_C m c T h0 h1 h2 h3]
          dsimp only
          exact col_C_not_mem c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) ((hcond0_2 T).mpr h2) (fun h => h3 ((hcond0_3 T).mp h)) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2 o ho cc hx
      · have h3 : ¬T.val % 32 = 31 := by omega
        rw [outsAt0_B m c T h0 h1 h2 h3]
        dsimp only
        exact col_B_not_mem c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) (fun h => h2 ((hcond0_2 T).mp h)) (fun h => h3 ((hcond0_3 T).mp h)) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2 o ho cc hx

/-- At a batch's first point the running maximum is the reset value. -/
theorem run_reset (T : Fin cfg0.N) (h32 : T.val % 32 = 0) : (outsAt0 m c T.val T.isLt).2.2.2 = k0_pay5 := by
  have hN : T.val < 128 := lt_of_lt_of_eq T.isLt (show cfg0.N = 128 from N_0)
  by_cases h0 : T.val % 32 = 0
  · have h1 : T.val % 8 = 0 := by omega
    have h2 : ¬T.val % 8 = 7 := by omega
    have h3 : ¬T.val % 32 = 31 := by omega
    rw [outsAt0_A m c T h0 h1 h2 h3]
    dsimp only
    exact run_A c (grid0.coords T) (ms0_0 T) (hs0_0 T) (ms0_1 T) (hs0_1 T) (ms0_2 T) (hs0_2 T) scM0_0 (Memref.isWhole_whole _) scM0_1 (Memref.isWhole_whole _) scM0_2 (Memref.isWhole_whole _) ((hcond0_0 T).mpr h0) ((hcond0_1 T).mpr h1) (fun h => h2 ((hcond0_2 T).mp h)) (fun h => h3 ((hcond0_3 T).mp h)) (iblk m c 0 T) (iblk m c 1 T)
  · by_cases h1 : T.val % 8 = 0
    · have h2 : ¬T.val % 8 = 7 := by omega
      have h3 : ¬T.val % 32 = 31 := by omega
      exfalso; omega
    · by_cases h2 : T.val % 8 = 7
      · by_cases h3 : T.val % 32 = 31
        · exfalso; omega
        · exfalso; omega
      · have h3 : ¬T.val % 32 = 31 := by omega
        exfalso; omega

/-- Away from a last column tile (and from a batch's first point) the running maximum is the point before's. -/
theorem run_keep (T : Fin cfg0.N) (h32 : ¬T.val % 32 = 0) (h7 : ¬T.val % 8 = 7) : (outsAt0 m c T.val T.isLt).2.2.2 = (outsAt0 m c (T.val - 1) (Nat.lt_of_le_of_lt (Nat.sub_le _ _) T.isLt)).2.2.2 := by
  have hN : T.val < 128 := lt_of_lt_of_eq T.isLt (show cfg0.N = 128 from N_0)
  by_cases h0 : T.val % 32 = 0
  · have h1 : T.val % 8 = 0 := by omega
    have h2 : ¬T.val % 8 = 7 := by omega
    have h3 : ¬T.val % 32 = 31 := by omega
    exfalso; omega
  · by_cases h1 : T.val % 8 = 0
    · have h2 : ¬T.val % 8 = 7 := by omega
      have h3 : ¬T.val % 32 = 31 := by omega
      rw [outsAt0_D m c T h0 h1 h2 h3]
      rfl
    · by_cases h2 : T.val % 8 = 7
      · by_cases h3 : T.val % 32 = 31
        · exfalso; omega
        · exfalso; omega
      · have h3 : ¬T.val % 32 = 31 := by omega
        rw [outsAt0_B m c T h0 h1 h2 h3]
        rfl

/-- At a last column tile the running maximum takes in the largest of the new row minima. -/
theorem run_acc (T : Fin cfg0.N) (h7 : T.val % 8 = 7) :
    (outsAt0 m c T.val T.isLt).2.2.2 = k0_pay3 (k0_pay1 (k0_pay9 (iblk m c 0 T) (iblk m c 1 T) (outsAt0 m c (T.val - 1) (Nat.lt_of_le_of_lt (Nat.sub_le _ _) T.isLt)).2.1)) (outsAt0 m c (T.val - 1) (Nat.lt_of_le_of_lt (Nat.sub_le _ _) T.isLt)).2.2.2 := by
  have hN : T.val < 128 := lt_of_lt_of_eq T.isLt (show cfg0.N = 128 from N_0)
  by_cases h0 : T.val % 32 = 0
  · have h1 : T.val % 8 = 0 := by omega
    have h2 : ¬T.val % 8 = 7 := by omega
    have h3 : ¬T.val % 32 = 31 := by omega
    exfalso; omega
  · by_cases h1 : T.val % 8 = 0
    · have h2 : ¬T.val % 8 = 7 := by omega
      have h3 : ¬T.val % 32 = 31 := by omega
      exfalso; omega
    · by_cases h2 : T.val % 8 = 7
      · by_cases h3 : T.val % 32 = 31
        · rw [outsAt0_E m c T h0 h1 h2 h3]
          dsimp only
          exact run_E c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) ((hcond0_2 T).mpr h2) ((hcond0_3 T).mpr h3) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2
        · rw [outsAt0_C m c T h0 h1 h2 h3]
          dsimp only
          exact run_C c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) ((hcond0_2 T).mpr h2) (fun h => h3 ((hcond0_3 T).mp h)) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2
      · have h3 : ¬T.val % 32 = 31 := by omega
        exfalso; omega

/-- At a batch's last point the output block is the larger of the new running maximum and the largest of the new column minima. -/
theorem out_last (T : Fin cfg0.N) (h31 : T.val % 32 = 31) :
    (outsAt0 m c T.val T.isLt).1 = k0_pay4 (outsAt0 m c T.val T.isLt).2.2.1 (k0_pay3 (k0_pay1 (k0_pay9 (iblk m c 0 T) (iblk m c 1 T) (outsAt0 m c (T.val - 1) (Nat.lt_of_le_of_lt (Nat.sub_le _ _) T.isLt)).2.1)) (outsAt0 m c (T.val - 1) (Nat.lt_of_le_of_lt (Nat.sub_le _ _) T.isLt)).2.2.2) := by
  have hN : T.val < 128 := lt_of_lt_of_eq T.isLt (show cfg0.N = 128 from N_0)
  by_cases h0 : T.val % 32 = 0
  · have h1 : T.val % 8 = 0 := by omega
    have h2 : ¬T.val % 8 = 7 := by omega
    have h3 : ¬T.val % 32 = 31 := by omega
    exfalso; omega
  · by_cases h1 : T.val % 8 = 0
    · have h2 : ¬T.val % 8 = 7 := by omega
      have h3 : ¬T.val % 32 = 31 := by omega
      exfalso; omega
    · by_cases h2 : T.val % 8 = 7
      · by_cases h3 : T.val % 32 = 31
        · rw [outsAt0_E m c T h0 h1 h2 h3]
          dsimp only
          exact out_E c (grid0.coords T) (ms0_0 T) (hs0_0 T) (ms0_1 T) (hs0_1 T) (ms0_2 T) (hs0_2 T) scM0_0 (Memref.isWhole_whole _) scM0_1 (Memref.isWhole_whole _) scM0_2 (Memref.isWhole_whole _) (fun h => h0 ((hcond0_0 T).mp h)) (fun h => h1 ((hcond0_1 T).mp h)) ((hcond0_2 T).mpr h2) ((hcond0_3 T).mpr h3) (iblk m c 0 T) (iblk m c 1 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2
        · exfalso; omega
      · have h3 : ¬T.val % 32 = 31 := by omega
        exfalso; omega

end Cert.KernelIdeal.HValue

end
-- ==== Proof.Payload.lean ====
/-
  The body's arithmetic read entry by entry over the extended reals: the tile of squared distances,
  the row and column minima of a tile folded into the running minima, the maxima folded into the
  running maximum, and the reset values (plus and minus infinity).
-/
import proofs.«168341_j11381663334571_2_alg».proof.Proof.Gen.KernelIdeal.Skeleton
import proofs.«168341_j11381663334571_2_alg».proof.Proof.Laws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Idealize.ShloMosaic.ValueIdx Cert.Hausdorff

/-- A minimum over one axis, at the extended reals: the fold of `min` from the accumulator's value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A one-column matrix made from a vector reads the vector's entry of the row. -/
theorem shapeCast_a_a1_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column stretched across the columns of a matrix reads the column's entry of the row. -/
theorem broadcastTo_a1_ab_apply {a b : ℕ} {α : Type} (v : (⟨2, ![a, 1]⟩ : Shape).Idx → α) (h : (⟨2, ![a, 1]⟩ : Shape).Broadcasts ⟨2, ![a, b]⟩)
    (hb : a ≠ 1 ∨ True) (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    by_cases h1 : a = 1
    · rw [if_pos h1]; have := p.isLt; omega
    · rw [if_neg h1]
  | ⟨1, _⟩ => rfl

/-- The stored row minima are the computed ones (the store's recast keeps the shape). -/
theorem pay1_eq (v : FVec Ideal S2048x1 .f32) : k0_pay1 (F := Ideal) v = v := by
  unfold k0_pay1; exact shapeCast_self _ _

/-- The reset value of the running maximum is minus infinity. -/
theorem pay5_apply (j : S1x1.Idx) : k0_pay5 (F := Ideal) j = (⊥ : EReal) := by
  unfold k0_pay5
  rw [shapeCast_self]
  exact ofBits_neg_inf

/-- The reset value of the column minima is plus infinity. -/
theorem pay6_apply (j : S1x8192.Idx) : k0_pay6 (F := Ideal) j = (⊤ : EReal) := by
  unfold k0_pay6
  rw [shapeCast_self]
  exact ofBits_pos_inf

/-- The reset value of the row minima is plus infinity. -/
theorem pay7_apply (j : S2048x1.Idx) : k0_pay7 (F := Ideal) j = (⊤ : EReal) := by
  unfold k0_pay7
  rw [shapeCast_self]
  exact ofBits_pos_inf

/-- The tile of squared distances: entry (r, cc) is the sum of the three squared coordinate differences of
    row `r` of the first block and column `cc` of the (transposed) second block. -/
theorem pay8_apply (x0 : Vec Ideal S1x2048x3 .f32) (x1 : Vec Ideal S1x3x1024 .f32) (r : Fin 2048) (cc : Fin 1024) :
    k0_pay8 (F := Ideal) x0 x1 (ix2 r cc) = sqd (fun k => x0 (ix3 (0 : Fin 1) r k)) (fun k => x1 (ix3 (0 : Fin 1) k cc)) := by
  have ea : ∀ (k : Fin 3) (off : Fin 2 → ℕ) (hoff : off = ![0, k.val]) (hs : S2048x3.Slices off S2048x1) (hb : S2048x1.Broadcasts S2048x1024),
      broadcastTo S2048x1024 (extractStridedSlice S2048x1 off (shapeCast S2048x3 x0 shapeCasts_S1x2048x3_S2048x3) hs) hb (ix2 r cc)
        = x0 (ix3 (0 : Fin 1) r k) := by
    intro k off hoff hs hb
    subst hoff
    rw [broadcastTo_a1_ab_apply _ hb (Or.inr trivial),
      extractStridedSlice_apply _ _ hs (ix2 r (0 : Fin 1)) (ix2 r k) (fun a => by
        match a with
        | ⟨0, _⟩ => show r.val = 0 + r.val; omega
        | ⟨1, _⟩ => show k.val = k.val + 0; omega),
      shapeCast_1ab_ab_apply]
  have eg : ∀ (k : Fin 3) (off : Fin 2 → ℕ) (hoff : off = ![k.val, 0]) (hs : S3x1024.Slices off S1x1024) (hb : S1x1024.Broadcasts S2048x1024),
      broadcastTo S2048x1024 (extractStridedSlice S1x1024 off (shapeCast S3x1024 x1 shapeCasts_S1x3x1024_S3x1024) hs) hb (ix2 r cc)
        = x1 (ix3 (0 : Fin 1) k cc) := by
    intro k off hoff hs hb
    subst hoff
    rw [broadcastTo_1b_ab_apply,
      extractStridedSlice_apply _ _ hs (ix2 (0 : Fin 1) cc) (ix2 k cc) (fun a => by
        match a with
        | ⟨0, _⟩ => show k.val = k.val + 0; omega
        | ⟨1, _⟩ => show cc.val = 0 + cc.val; omega),
      shapeCast_1ab_ab_apply]
  unfold k0_pay8
  simp only [addf_apply, mulf_apply, subf_apply, broadcast_apply]
  rw [ea 0 ![0, 0] rfl, ea 1 ![0, 1] rfl, ea 2 ![0, 2] rfl, eg 0 ![0, 0] rfl, eg 1 ![1, 0] rfl, eg 2 ![2, 0] rfl]
  show Ideal.ofBits .f32 0x00000000#32 + _ + _ + _ = _
  rw [Ideal.ofBits_zero_f32, zero_add]
  rfl

/-- A minimum over one axis from plus infinity, read at a result index: the infimum over that axis's coordinates. -/
theorem minReduce_apply {s t : Shape} {a : Fin s.rank} (src : FVec Ideal s .f32) (h : s.Reduces [a] t) (hφ : FKind.Formats .f32)
    (hacc : (0x7F800000#32 : BitVec 32) = 0x7F800000#32) (j : t.Idx) :
    multiReduction .minimumf [a] t src 0x7F800000#32 h hφ hacc j
      = (Finset.univ : Finset (Fin (s.size a))).inf fun k => src (h.lift j k) :=
  (multiReduction_minimumf_single src 0x7F800000#32 h hφ hacc j).trans (by
    rw [Ideal.ofBits_def, ofBits_pos_inf, fold_min_top]; rfl)

/-- A maximum over one axis from minus infinity, read at a result index: the supremum over that axis's coordinates. -/
theorem maxReduce_apply {s t : Shape} {a : Fin s.rank} (src : FVec Ideal s .f32) (h : s.Reduces [a] t) (hφ : FKind.Formats .f32)
    (hacc : (0xFF800000#32 : BitVec 32) = 0xFF800000#32) (j : t.Idx) :
    multiReduction .maximumf [a] t src 0xFF800000#32 h hφ hacc j
      = (Finset.univ : Finset (Fin (s.size a))).sup fun k => src (h.lift j k) :=
  (Ideal.multiReduction_maximumf_single src 0xFF800000#32 h hφ hacc j).trans (by
    rw [Ideal.ofBits_def, ofBits_neg_inf, fold_max_bot]; rfl)

/-- The new row minima: entry `r` is the smaller of what was there and the minimum of row `r` of the tile. -/
theorem pay9_apply (x0 : Vec Ideal S1x2048x3 .f32) (x1 : Vec Ideal S1x3x1024 .f32) (v36 : Vec Ideal S2048x1 .f32) (r : Fin 2048) (u : Fin 1) :
    k0_pay9 (F := Ideal) x0 x1 v36 (ix2 r u)
      = min (v36 (ix2 r u)) ((Finset.univ : Finset (Fin 1024)).inf fun cc => k0_pay8 (F := Ideal) x0 x1 (ix2 r cc)) := by
  unfold k0_pay9
  refine (minimumf_apply _ _ _).trans (congrArg (min _) ?_)
  refine (shapeCast_a_a1_apply _ _ r u).trans ?_
  refine (minReduce_apply _ _ _ _ (ix1 r)).trans (Finset.inf_congr rfl fun cc _ => ?_)
  exact congrArg (k0_pay8 (F := Ideal) x0 x1) (funext fun a => Fin.ext (by match a with | ⟨0, _⟩ => rfl | ⟨1, _⟩ => rfl))

/-- The new column minima of the current tile: entry `cc` is the smaller of what was there and the minimum of column `cc` of the tile. -/
theorem pay2_apply (v33 : FVec Ideal S2048x1024 .f32) (v46 : Vec Ideal S1x1024 .f32) (u : Fin 1) (cc : Fin 1024) :
    k0_pay2 (F := Ideal) v33 v46 (ix2 u cc)
      = min (v46 (ix2 u cc)) ((Finset.univ : Finset (Fin 2048)).inf fun r => v33 (ix2 r cc)) := by
  unfold k0_pay2
  rw [shapeCast_self]
  refine (minimumf_apply _ _ _).trans (congrArg (min _) ?_)
  refine (shapeCast_a_1a_apply _ _ u cc).trans ?_
  refine (minReduce_apply _ _ _ _ (ix1 cc)).trans (Finset.inf_congr rfl fun r _ => ?_)
  exact congrArg v33 (funext fun a => Fin.ext (by match a with | ⟨0, _⟩ => rfl | ⟨1, _⟩ => rfl))

/-- The new running maximum: the larger of what was there and the largest of the row minima. -/
theorem pay3_apply (v60 : Vec Ideal S2048x1 .f32) (v63 : Vec Ideal S1x1 .f32) (u u' : Fin 1) :
    k0_pay3 (F := Ideal) v60 v63 (ix2 u u')
      = max (v63 (ix2 u u')) ((Finset.univ : Finset (Fin 2048)).sup fun r => v60 (ix2 r (0 : Fin 1))) := by
  unfold k0_pay3
  rw [shapeCast_self]
  refine (maximumf_apply _ _ _).trans (congrArg (max _) ?_)
  refine (shapeCast_a_1a_apply _ _ u u').trans ?_
  refine (maxReduce_apply _ _ _ _ (ix1 u')).trans (Finset.sup_congr rfl fun r _ => ?_)
  refine congrArg v60 (funext fun a => Fin.ext ?_)
  match a with
  | ⟨0, _⟩ => rfl
  | ⟨1, _⟩ => show u'.val = 0; omega

/-- The output entry: the larger of the running maximum and the largest of the column minima. -/
theorem pay4_apply (v60 : Vec Ideal S1x8192 .f32) (v63 : Vec Ideal S1x1 .f32) (j : S1x1x1.Idx) :
    k0_pay4 (F := Ideal) v60 v63 j
      = max (v63 (ix2 (0 : Fin 1) (0 : Fin 1))) ((Finset.univ : Finset (Fin 8192)).sup fun cc => v60 (ix2 (0 : Fin 1) cc)) := by
  obtain ⟨p, q, s, rfl⟩ : ∃ (p q s : Fin 1), j = ix3 p q s := ⟨j 0, j 1, j 2, eq_ix3 j⟩
  have hp : p = 0 := Fin.ext (by omega)
  have hq : q = 0 := Fin.ext (by omega)
  have hs : s = 0 := Fin.ext (by omega)
  subst hp hq hs
  unfold k0_pay4
  refine (shapeCast_ab_1ab_apply _ _ (0 : Fin 1) (0 : Fin 1) (0 : Fin 1)).trans ?_
  refine (maximumf_apply _ _ _).trans (congrArg (max _) ?_)
  refine (shapeCast_a_1a_apply _ _ (0 : Fin 1) (0 : Fin 1)).trans ?_
  refine (maxReduce_apply _ _ _ _ (ix1 (0 : Fin 1))).trans (Finset.sup_congr rfl fun cc _ => ?_)
  exact congrArg v60 (funext fun a => Fin.ext (by match a with | ⟨0, _⟩ => rfl | ⟨1, _⟩ => rfl))

end Cert.KernelIdeal.HValue

end
-- ==== Proof.Grid.lean ====
/-
  How the kernel's grid of 4 × 4 × 8 points addresses the two point clouds. Point number
  t = 32 b + 8 n + c reads rows 2048 n … 2048 n + 2047 of batch b of the first cloud and columns
  1024 c … 1024 c + 1023 of batch b of the transposed second cloud; its slice of the running row of
  column minima starts at column 1024 c. After the grid the host takes the square root of each
  batch's number clamped at zero from below.
-/
import proofs.«168341_j11381663334571_2_alg».proof.Proof.Gen.KernelIdeal.Frame
import proofs.«168341_j11381663334571_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HValue

open Cert.KernelIdeal Cert.KernelIdeal.Gen Cert.Hausdorff

/-- A natural number as a batch index, reduced modulo 4. -/
def f4 (x : ℕ) : Fin 4 := ⟨x % 4, Nat.mod_lt _ (by decide)⟩

/-- A natural number as a point index within a cloud, reduced modulo 8192. -/
def f8192 (x : ℕ) : Fin 8192 := ⟨x % 8192, Nat.mod_lt _ (by decide)⟩

@[simp] theorem f4_val (x : ℕ) : (f4 x).val = x % 4 := rfl

@[simp] theorem f8192_val (x : ℕ) : (f8192 x).val = x % 8192 := rfl

/-- At point t the slice of the running row of column minima starts at column 1024 (t mod 8):
    decided over the 128 points of the grid. -/
theorem off_eq : ∀ t : Fin cfg0.N, k0_off1 (grid0.coords t) = ![0, (t.val % 8) * 1024] :=
  (by decide +kernel : ∀ t : Fin grid0.N, k0_off1 (grid0.coords t) = ![0, (t.val % 8) * 1024])

section Blocks

variable {F : FTy → Type} [FloatOps F]
variable (m : (ℓ : Loc nD τ sig) → Buf (Elt F) ℓ)

/-- Point t = 32 b + 8 n + c reads block (b, n, 0) of the first cloud: decided over the grid. -/
theorem idx0 : ∀ t : Fin cfg0.N, win0_0.index t 0 = t.val / 32 ∧ win0_0.index t 1 = t.val / 8 % 4
    ∧ win0_0.index t 2 = 0 :=
  (by decide +kernel : ∀ t : Fin grid0.N, win0_0.index t 0 = t.val / 32 ∧ win0_0.index t 1 = t.val / 8 % 4
    ∧ win0_0.index t 2 = 0)

/-- Point t = 32 b + 8 n + c reads block (b, 0, c) of the transposed second cloud: decided over
    the grid. -/
theorem idx1 : ∀ t : Fin cfg0.N, win0_1.index t 0 = t.val / 32 ∧ win0_1.index t 1 = 0
    ∧ win0_1.index t 2 = t.val % 8 :=
  (by decide +kernel : ∀ t : Fin grid0.N, win0_1.index t 0 = t.val / 32 ∧ win0_1.index t 1 = 0
    ∧ win0_1.index t 2 = t.val % 8)

/-- Row r, coordinate k of the first window's block at point t is the first cloud's point
    2048 (t / 8 mod 4) + r of batch t / 32, coordinate k. -/
theorem iblk0_apply (c : Dev nD) (t : Fin cfg0.N) (r : Fin 2048) (k : Fin 3) :
    iblk m c 0 t (ix3 (0 : Fin 1) r k)
      = m ((c : Thread nD τ).loc main_arg0)
          (ix3 (f4 (t.val / 32)) (f8192 ((t.val / 8 % 4) * 2048 + r.val)) k) := by
  have ht : t.val < 128 := t.isLt
  obtain ⟨h0, h1, h2⟩ := idx0 t
  unfold iblk
  rw [View.read_apply]
  show V m c main_arg0 _ = m (c.tc.loc main_arg0) _
  rw [V_main_arg0 m c]
  congr 1
  funext a
  apply Fin.ext
  match a with
  | ⟨0, _⟩ =>
    show win0_0.index t 0 * 1 + 1 * 0 = (t.val / 32) % 4
    rw [h0]; omega
  | ⟨1, _⟩ =>
    show win0_0.index t 1 * 2048 + 1 * r.val = ((t.val / 8 % 4) * 2048 + r.val) % 8192
    rw [h1]; omega
  | ⟨2, _⟩ =>
    show win0_0.index t 2 * 3 + 1 * k.val = k.val
    rw [h2]; omega

/-- The second window's array, as the grid finds it, is the second cloud with its last two axes
    exchanged: the one host operation before the grid. -/
theorem V_main_v0 (c : Dev nD) :
    (V m c main_v0 : S4x3x8192.Idx → Elt F .f32)
      = transpose S4x3x8192 [0, 2, 1] (m ((c : Thread nD τ).loc main_arg1))
          transposes_S4x8192x3_S4x3x8192_0_2_1 := by
  show StableHlo.after hostOps0 (fun b => m (c, b)) (Proc.devRef .tc main_v0) = _
  after_results

/-- Coordinate k, column cc of the second window's block at point t is the second cloud's point
    1024 (t mod 8) + cc of batch t / 32, coordinate k. -/
theorem iblk1_apply (c : Dev nD) (t : Fin cfg0.N) (k : Fin 3) (cc : Fin 1024) :
    iblk m c 1 t (ix3 (0 : Fin 1) k cc)
      = m ((c : Thread nD τ).loc main_arg1)
          (ix3 (f4 (t.val / 32)) (f8192 ((t.val % 8) * 1024 + cc.val)) k) := by
  have ht : t.val < 128 := t.isLt
  obtain ⟨h0, h1, h2⟩ := idx1 t
  unfold iblk
  rw [View.read_apply]
  show (V m c main_v0 : S4x3x8192.Idx → Elt F .f32) _ = m (c.tc.loc main_arg1) _
  rw [V_main_v0 m c]
  refine (transpose_apply _ _ _ _
    (ix3 (f4 (t.val / 32)) (f8192 ((t.val % 8) * 1024 + cc.val)) k) fun b => ?_)
  match b with
  | ⟨0, _⟩ =>
    show (t.val / 32) % 4 = win0_1.index t 0 * 1 + 1 * 0
    rw [h0]; omega
  | ⟨1, _⟩ =>
    show k.val = win0_1.index t 1 * 3 + 1 * k.val
    rw [h1]; omega
  | ⟨2, _⟩ =>
    show ((t.val % 8) * 1024 + cc.val) % 8192 = win0_1.index t 2 * 1024 + 1 * cc.val
    rw [h2]; omega

end Blocks

/-- After the grid the host reshapes the 4 × 1 × 1 table of squared Hausdorff numbers to length 4,
    takes the maximum with zero and then the square root: entry j is the clamped square root of
    the table's entry (j, 0, 0). -/
theorem tail_value (m : (ℓ : Loc nD τ sig) → Buf (Elt Ideal) ℓ) (c : Dev nD) (Hout : S4x1x1.Idx → EReal)
    (hfin : (dats m 0 c).arrAt 2 cfg0.N = Hout) :
    Pipeline.afterTail₀ cfgs (dats m) 0 (V0 m) [hostOps1] c main_v5
      = fun j => clampSqrt (Hout (ix3 (j 0) (0 : Fin 1) (0 : Fin 1))) := by
  unfold Pipeline.afterTail₀
  show StableHlo.after hostOps1 _ (Proc.devRef .tc main_v5) = _
  after_results
  funext j
  have e : Pipeline.withArrays (cfgs 0).spec c (V0 m c) (fun w => (dats m 0 c).arrAt w (cfgs 0).N)
      (Proc.devRef .tc main_v1) = Hout :=
    (Pipeline.withArrays_arr spec0 launch0.win.arr_inj c _ _ 2).trans hfin
  have e1 : shapeCast S4 Hout shapeCasts_S4x1x1_S4 j = Hout (ix3 (j 0) (0 : Fin 1) (0 : Fin 1)) :=
    shapeCast_apply Hout shapeCasts_S4x1x1_S4 j _ (by
      rw [Shape.rowMajor_val_three, Shape.rowMajor_val_one]
      show ((j 0).val * 1 + 0) * 1 + 0 = (j 0).val
      omega)
  have e2 : broadcastInDim S4 ![] bcast_S_S4 (constant (F := Ideal) S_ .f32 0x00000000#32) j
      = (0 : EReal) := by
    rw [broadcastInDim_apply ![] bcast_S_S4 _ j ix0 (fun a => a.elim0), constant_apply]
    simp [Ideal.ofBits, Ideal.ieee]
  show Ideal.sqrt (max
      (shapeCast S4 (Pipeline.withArrays (cfgs 0).spec c (V0 m c)
        (fun w => (dats m 0 c).arrAt w (cfgs 0).N) (Proc.devRef .tc main_v1)) shapeCasts_S4x1x1_S4 j)
      (broadcastInDim S4 ![] bcast_S_S4 (constant (F := Ideal) S_ .f32 0x00000000#32) j))
    = Ideal.sqrt (max (Hout (ix3 (j 0) (0 : Fin 1) (0 : Fin 1))) 0)
  rw [e, e1, e2]

end Cert.KernelIdeal.HValue

end
-- ==== Proof.Table.lean ====
/-
  The table of squared distances of one batch at natural-number coordinates, its row and column minima,
  and its squared Hausdorff number; and how far the running column minima and the running maximum have
  got after a given grid point.
-/
import proofs.«168341_j11381663334571_2_alg».proof.Proof.Grid
import proofs.«168341_j11381663334571_2_alg».proof.Proof.Spec

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Idealize.ShloMosaic.ValueIdx Cert.Hausdorff

variable (m : (ℓ : Loc nD τ sig) → Buf (Elt Ideal) ℓ) (c : Dev nD)

/-- The squared distance between point `R` of the first cloud and point `cc` of the second, in batch `b`
    (natural-number coordinates, reduced into range). -/
def Dn (b R cc : ℕ) : EReal :=
  sqd (fun k => m ((c : Thread nD τ).loc main_arg0) (ix3 (f4 b) (f8192 R) k))
    (fun k => m ((c : Thread nD τ).loc main_arg1) (ix3 (f4 b) (f8192 cc) k))

/-- The minimum of row `R` over all columns. -/
def rowFull (b R : ℕ) : EReal := (Finset.range 8192).inf fun cc => Dn m c b R cc
/-- The minimum of column `cc` over all rows. -/
def colFull (b cc : ℕ) : EReal := (Finset.range 8192).inf fun R => Dn m c b R cc
/-- The squared Hausdorff number of batch `b`. -/
def hdN (b : ℕ) : EReal :=
  max ((Finset.range 8192).sup fun R => rowFull m c b R) ((Finset.range 8192).sup fun cc => colFull m c b cc)

/-- How many rows column `cc`'s running minimum has seen after point `t`. -/
def colH (t cc : ℕ) : ℕ := if cc < (t % 8 + 1) * 1024 then (t / 8 % 4 + 1) * 2048 else t / 8 % 4 * 2048
/-- How many rows the running maximum has seen after point `t`. -/
def runH (t : ℕ) : ℕ := if t % 8 = 7 then (t / 8 % 4 + 1) * 2048 else t / 8 % 4 * 2048

end Cert.KernelIdeal.HValue

end
-- ==== Proof.Invariant.lean ====
/-
  The induction over the grid points. Within a batch `b` the points run over the row tiles `n` (2048 rows
  each) and, inside a row tile, over the column tiles `mm` (1024 columns each); point number
  `t = 32 b + 8 n + mm`. After point `t`:
    * row minimum `r` of the current row tile is the minimum of row `2048 n + r` over the columns below `1024 (mm + 1)`;
    * column minimum `cc` is the minimum of column `cc` over the rows below `2048 (n + 1)` if the column lies in a
      tile already visited in this row tile, below `2048 n` otherwise;
    * the running maximum is the largest full row minimum over the rows below `2048 (n + 1)` at a last column
      tile, below `2048 n` otherwise;
    * at the batch's last point the output is the larger of the largest row minimum and the largest column minimum.
  Each step glues a range of columns or rows to the next tile's (`inf_range_add`, `sup_range_add`).
-/
import proofs.«168341_j11381663334571_2_alg».proof.Proof.Cases
import proofs.«168341_j11381663334571_2_alg».proof.Proof.Payload
import proofs.«168341_j11381663334571_2_alg».proof.Proof.Table
import proofs.«168341_j11381663334571_2_alg».proof.Proof.Laws

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Idealize.ShloMosaic.ValueIdx Cert.Hausdorff

variable (m : (ℓ : Loc nD τ sig) → Buf (Elt Ideal) ℓ) (c : Dev nD)

/-- Entry (r, cc) of the tile at point `t` is the squared distance of the tile's row and column in the whole table. -/
theorem tile_apply (T : Fin cfg0.N) (r : Fin 2048) (cc : Fin 1024) :
    k0_pay8 (F := Ideal) (iblk m c 0 T) (iblk m c 1 T) (ix2 r cc)
      = Dn m c (T.val / 32) (T.val / 8 % 4 * 2048 + r.val) (T.val % 8 * 1024 + cc.val) := by
  refine (pay8_apply (iblk m c 0 T) (iblk m c 1 T) r cc).trans ?_
  unfold Dn
  congr 1 <;> funext k
  · exact iblk0_apply m c T r k
  · exact iblk1_apply m c T k cc

/-- The new row minima over what was there. -/
theorem newRow (T : Fin cfg0.N) (old : Vec Ideal S2048x1 .f32) (r : Fin 2048) (u : Fin 1) :
    k0_pay1 (F := Ideal) (k0_pay9 (F := Ideal) (iblk m c 0 T) (iblk m c 1 T) old) (ix2 r u)
      = min (old (ix2 r u)) ((Finset.range 1024).inf fun j => Dn m c (T.val / 32) (T.val / 8 % 4 * 2048 + r.val) (T.val % 8 * 1024 + j)) := by
  rw [pay1_eq]
  refine (pay9_apply (iblk m c 0 T) (iblk m c 1 T) old r u).trans (congrArg (min _) ?_)
  rw [← inf_univ_fin 1024 (fun j => Dn m c (T.val / 32) (T.val / 8 % 4 * 2048 + r.val) (T.val % 8 * 1024 + j))]
  exact Finset.inf_congr rfl fun cc _ => tile_apply m c T r cc

/-- The new column minima of the current tile over the loaded ones. -/
theorem newCol (T : Fin cfg0.N) (ldv : Vec Ideal S1x1024 .f32) (x : Fin 1024) (u : Fin 1) :
    k0_pay2 (F := Ideal) (k0_pay8 (F := Ideal) (iblk m c 0 T) (iblk m c 1 T)) ldv (ix2 u x)
      = min (ldv (ix2 u x)) ((Finset.range 2048).inf fun j => Dn m c (T.val / 32) (T.val / 8 % 4 * 2048 + j) (T.val % 8 * 1024 + x.val)) := by
  refine (pay2_apply (k0_pay8 (F := Ideal) (iblk m c 0 T) (iblk m c 1 T)) ldv u x).trans (congrArg (min _) ?_)
  rw [← inf_univ_fin 2048 (fun j => Dn m c (T.val / 32) (T.val / 8 % 4 * 2048 + j) (T.val % 8 * 1024 + x.val))]
  exact Finset.inf_congr rfl fun r _ => tile_apply m c T r x

/-- The new running maximum over the old one, the row minima given entry by entry. -/
theorem newRun (rows : Vec Ideal S2048x1 .f32) (old : Vec Ideal S1x1 .f32) (g : ℕ → EReal)
    (hrows : ∀ r : Fin 2048, rows (ix2 r (0 : Fin 1)) = g r.val) (u u' : Fin 1) :
    k0_pay3 (F := Ideal) rows old (ix2 u u') = max (old (ix2 u u')) ((Finset.range 2048).sup g) := by
  refine (pay3_apply rows old u u').trans (congrArg (max _) ?_)
  rw [← sup_univ_fin 2048 g]
  exact Finset.sup_congr rfl fun r _ => hrows r

/-- The output entry over the running maximum, the column minima given entry by entry. -/
theorem newOut (cols : Vec Ideal S1x8192 .f32) (rm : Vec Ideal S1x1 .f32) (g : ℕ → EReal)
    (hcols : ∀ cc : Fin 8192, cols (ix2 (0 : Fin 1) cc) = g cc.val) (j : S1x1x1.Idx) :
    k0_pay4 (F := Ideal) cols rm j = max (rm (ix2 (0 : Fin 1) (0 : Fin 1))) ((Finset.range 8192).sup g) := by
  refine (pay4_apply cols rm j).trans (congrArg (max _) ?_)
  rw [← sup_univ_fin 8192 g]
  exact Finset.sup_congr rfl fun cc _ => hcols cc

/-- Gluing the minimum over the first `K` indices to the minimum over the next `L`. -/
theorem inf_glue (K K' K'' L : ℕ) (f : ℕ → EReal) (h1 : K' = K) (h2 : K'' = K + L) :
    min ((Finset.range K').inf f) ((Finset.range L).inf fun j => f (K + j)) = (Finset.range K'').inf f := by
  subst h1; subst h2; exact (inf_range_add _ L f).symm

/-- The same from nothing: the minimum over the first `L` indices against plus infinity. -/
theorem inf_glue_top (K'' L : ℕ) (f : ℕ → EReal) (h2 : K'' = L) :
    min ⊤ ((Finset.range L).inf fun j => f (0 + j)) = (Finset.range K'').inf f := by
  subst h2
  have := inf_glue 0 0 (0 + K'') K'' f rfl rfl
  rw [Finset.range_zero, Finset.inf_empty, Nat.zero_add] at this
  exact this

/-- Gluing the maximum over the first `K` indices to the maximum over the next `L`. -/
theorem sup_glue (K K' K'' L : ℕ) (f : ℕ → EReal) (h1 : K' = K) (h2 : K'' = K + L) :
    max ((Finset.range K').sup f) ((Finset.range L).sup fun j => f (K + j)) = (Finset.range K'').sup f := by
  subst h1; subst h2; exact (sup_range_add _ L f).symm

/-- What the accumulators hold after point `t`. -/
structure Inv (t : ℕ) (h : t < cfg0.N) : Prop where
  row : ∀ (r : Fin 2048) (u : Fin 1), (outsAt0 m c t h).2.1 (ix2 r u)
      = (Finset.range ((t % 8 + 1) * 1024)).inf fun cc => Dn m c (t / 32) (t / 8 % 4 * 2048 + r.val) cc
  col : ∀ (cc : Fin 8192), (outsAt0 m c t h).2.2.1 (ix2 (0 : Fin 1) cc)
      = (Finset.range (colH t cc.val)).inf fun R => Dn m c (t / 32) R cc.val
  run : ∀ (u u' : Fin 1), (outsAt0 m c t h).2.2.2 (ix2 u u')
      = (Finset.range (runH t)).sup fun R => rowFull m c (t / 32) R
  out : t % 32 = 31 → ∀ j, (outsAt0 m c t h).1 j = hdN m c (t / 32)

/-- One point: the accumulators after point `t` from those after point `t - 1`. -/
theorem inv_step (T : Fin cfg0.N)
    (IH : T.val ≠ 0 → Inv m c (T.val - 1) (Nat.lt_of_le_of_lt (Nat.sub_le _ _) T.isLt)) : Inv m c T.val T.isLt := by
  have hN : T.val < 128 := lt_of_lt_of_eq T.isLt (show cfg0.N = 128 from N_0)
  have ho := off_eq T
  -- the row minima
  have hrow : ∀ (r : Fin 2048) (u : Fin 1), (outsAt0 m c T.val T.isLt).2.1 (ix2 r u)
      = (Finset.range ((T.val % 8 + 1) * 1024)).inf fun cc => Dn m c (T.val / 32) (T.val / 8 % 4 * 2048 + r.val) cc := by
    intro r u
    by_cases hm : T.val % 8 = 0
    · rw [row_reset (F := Ideal) m c T hm]
      refine (newRow m c T (k0_pay7 (F := Ideal)) r u).trans ?_
      rw [pay7_apply, hm]
      exact inf_glue_top _ 1024 (fun cc => Dn m c (T.val / 32) (T.val / 8 % 4 * 2048 + r.val) cc) (by omega)
    · have ht0 : T.val ≠ 0 := by omega
      rw [row_acc (F := Ideal) m c T hm]
      refine (newRow m c T _ r u).trans ?_
      rw [(IH ht0).row r u, show (T.val - 1) / 32 = T.val / 32 by omega, show (T.val - 1) / 8 % 4 = T.val / 8 % 4 by omega]
      exact inf_glue (T.val % 8 * 1024) _ _ 1024 (fun cc => Dn m c (T.val / 32) (T.val / 8 % 4 * 2048 + r.val) cc) (by omega) (by omega)
  -- the column minima
  have hcol : ∀ (cc : Fin 8192), (outsAt0 m c T.val T.isLt).2.2.1 (ix2 (0 : Fin 1) cc)
      = (Finset.range (colH T.val cc.val)).inf fun R => Dn m c (T.val / 32) R cc.val := by
    intro cc
    by_cases hin : T.val % 8 * 1024 ≤ cc.val ∧ cc.val < T.val % 8 * 1024 + 1024
    · obtain ⟨x, hx⟩ : ∃ x : Fin 1024, cc.val = T.val % 8 * 1024 + x.val :=
        ⟨⟨cc.val - T.val % 8 * 1024, by omega⟩, by simp only; omega⟩
      by_cases h32 : T.val % 32 = 0
      · rw [col_reset_mem (F := Ideal) m c T h32 _ ho cc x hx]
        refine (newCol m c T _ x 0).trans ?_
        rw [ld_col (F := Ideal) (k0_pay6 (F := Ideal)) (k0_off1_inb (grid0.coords T)) _ ho cc x 0 hx, pay6_apply, ← hx, show T.val / 8 % 4 = 0 by omega, Nat.zero_mul]
        exact inf_glue_top _ 2048 (fun R => Dn m c (T.val / 32) R cc.val) (by unfold colH; split_ifs <;> omega)
      · have ht0 : T.val ≠ 0 := by omega
        rw [col_acc_mem (F := Ideal) m c T h32 _ ho cc x hx]
        refine (newCol m c T _ x 0).trans ?_
        rw [ld_col (F := Ideal) _ (k0_off1_inb (grid0.coords T)) _ ho cc x 0 hx, (IH ht0).col cc, ← hx, show (T.val - 1) / 32 = T.val / 32 by omega]
        exact inf_glue (T.val / 8 % 4 * 2048) _ _ 2048 (fun R => Dn m c (T.val / 32) R cc.val)
          (by unfold colH; split_ifs <;> omega) (by unfold colH; split_ifs <;> omega)
    · have hx : cc.val < T.val % 8 * 1024 ∨ T.val % 8 * 1024 + 1024 ≤ cc.val := by omega
      by_cases h32 : T.val % 32 = 0
      · rw [col_reset_not_mem (F := Ideal) m c T h32 _ ho cc hx, pay6_apply,
          show colH T.val cc.val = 0 by unfold colH; split_ifs <;> omega, Finset.range_zero, Finset.inf_empty]
      · have ht0 : T.val ≠ 0 := by omega
        rw [col_acc_not_mem (F := Ideal) m c T h32 _ ho cc hx, (IH ht0).col cc, show (T.val - 1) / 32 = T.val / 32 by omega,
          show colH (T.val - 1) cc.val = colH T.val cc.val by unfold colH; split_ifs <;> omega]
  -- the running maximum
  have hrun : ∀ (u u' : Fin 1), (outsAt0 m c T.val T.isLt).2.2.2 (ix2 u u')
      = (Finset.range (runH T.val)).sup fun R => rowFull m c (T.val / 32) R := by
    intro u u'
    by_cases h32 : T.val % 32 = 0
    · rw [run_reset (F := Ideal) m c T h32, pay5_apply,
        show runH T.val = 0 by unfold runH; split_ifs <;> omega, Finset.range_zero, Finset.sup_empty]
    · have ht0 : T.val ≠ 0 := by omega
      by_cases h7 : T.val % 8 = 7
      · have hm : ¬T.val % 8 = 0 := by omega
        have hr : ∀ r : Fin 2048, k0_pay1 (F := Ideal) (k0_pay9 (F := Ideal) (iblk m c 0 T) (iblk m c 1 T)
            (outsAt0 m c (T.val - 1) (Nat.lt_of_le_of_lt (Nat.sub_le _ _) T.isLt)).2.1) (ix2 r (0 : Fin 1))
              = rowFull m c (T.val / 32) (T.val / 8 % 4 * 2048 + r.val) := by
          intro r
          have := hrow r 0
          rw [row_acc (F := Ideal) m c T hm] at this
          rw [this, h7]
          rfl
        rw [run_acc (F := Ideal) m c T h7]
        refine (newRun _ _ (fun j => rowFull m c (T.val / 32) (T.val / 8 % 4 * 2048 + j)) hr u u').trans ?_
        rw [(IH ht0).run u u', show (T.val - 1) / 32 = T.val / 32 by omega]
        exact sup_glue (T.val / 8 % 4 * 2048) _ _ 2048 (fun R => rowFull m c (T.val / 32) R)
          (by unfold runH; split_ifs <;> omega) (by unfold runH; split_ifs <;> omega)
      · rw [run_keep (F := Ideal) m c T h32 h7, (IH ht0).run u u', show (T.val - 1) / 32 = T.val / 32 by omega,
          show runH (T.val - 1) = runH T.val by unfold runH; split_ifs <;> omega]
  refine ⟨hrow, hcol, hrun, ?_⟩
  -- the output at a batch's last point
  intro h31 j
  have h7 : T.val % 8 = 7 := by omega
  have hc : ∀ cc : Fin 8192, (outsAt0 m c T.val T.isLt).2.2.1 (ix2 (0 : Fin 1) cc) = colFull m c (T.val / 32) cc.val := by
    intro cc
    have hlt : cc.val < 8192 := cc.isLt
    rw [hcol cc, show colH T.val cc.val = 8192 by unfold colH; split_ifs <;> omega]
    rfl
  have hm := hrun 0 0
  rw [run_acc (F := Ideal) m c T h7] at hm
  rw [out_last (F := Ideal) m c T h31]
  refine (newOut _ _ (fun cc => colFull m c (T.val / 32) cc) hc j).trans ?_
  rw [hm, show runH T.val = 8192 by unfold runH; split_ifs <;> omega]
  rfl

/-- After every point the accumulators hold the partial minima and maxima described above. -/
theorem inv : ∀ (t : ℕ) (h : t < cfg0.N), Inv m c t h
  | 0, h => inv_step m c ⟨0, h⟩ (fun hne => absurd rfl hne)
  | t + 1, h => inv_step m c ⟨t + 1, h⟩ (fun _ => inv t (Nat.lt_of_succ_lt h))

end Cert.KernelIdeal.HValue

end
-- ==== Proof.Final.lean ====
/-
  From the kernel's blocks to its result. The output table of 4 × 1 × 1 squared Hausdorff numbers
  is written back one batch at a time, at the last grid point of each batch; once every batch has
  been written the table holds the squared Hausdorff number of each batch, which is the Hausdorff
  number of the batch's 8192 × 8192 table of squared distances, and the host's clamped square
  root of it is the distance.
-/
import proofs.«168341_j11381663334571_2_alg».proof.Proof.Table
import proofs.«168341_j11381663334571_2_alg».proof.Proof.Result
import proofs.«168341_j11381663334571_2_alg».proof.Proof.Laws
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HValue

open Cert.KernelIdeal Cert.KernelIdeal.Gen Cert.Hausdorff

variable (m : (ℓ : Loc nD τ sig) → Buf (Elt Ideal) ℓ)

/-- The squared Hausdorff number of batch b at natural-number coordinates is the Hausdorff number
    of the batch's table of squared distances indexed by the points themselves: an index below
    the extent is its own residue. -/
theorem hdN_eq (c : Dev nD) (b : Fin 4) :
    hdN m c b.val = hdF fun (n mm : Fin 8192) =>
      sqd (fun k => m ((c : Thread nD τ).loc main_arg0) (ix3 b n k))
        (fun k => m ((c : Thread nD τ).loc main_arg1) (ix3 b mm k)) := by
  have hb : f4 b.val = b := Fin.ext (Nat.mod_eq_of_lt b.isLt)
  have hn : ∀ n : Fin 8192, f8192 n.val = n := fun n => Fin.ext (Nat.mod_eq_of_lt n.isLt)
  have hD : ∀ n mm : Fin 8192, Dn m c b.val n.val mm.val
      = sqd (fun k => m ((c : Thread nD τ).loc main_arg0) (ix3 b n k))
          (fun k => m ((c : Thread nD τ).loc main_arg1) (ix3 b mm k)) := by
    intro n mm
    unfold Dn
    rw [hb, hn n, hn mm]
  unfold hdN rowFull colFull hdF
  rw [← sup_univ_fin 8192 (fun R => (Finset.range 8192).inf fun cc => Dn m c b.val R cc),
    ← sup_univ_fin 8192 (fun cc => (Finset.range 8192).inf fun R => Dn m c b.val R cc)]
  refine congrArg₂ max ?_ ?_
  · refine Finset.sup_congr rfl fun n _ => ?_
    beta_reduce
    rw [← inf_univ_fin 8192 (fun cc => Dn m c b.val n.val cc)]
    exact Finset.inf_congr rfl fun mm _ => hD n mm
  · refine Finset.sup_congr rfl fun mm _ => ?_
    beta_reduce
    rw [← inf_univ_fin 8192 (fun R => Dn m c b.val R mm.val)]
    exact Finset.inf_congr rfl fun n _ => hD n mm

/-- The output window's block at point t is block (t / 32, 0, 0) of the 4 × 1 × 1 table: decided
    over the grid. -/
theorem idx2 : ∀ t : Fin cfg0.N, win0_2.index t 0 = t.val / 32 ∧ win0_2.index t 1 = 0
    ∧ win0_2.index t 2 = 0 :=
  (by decide +kernel : ∀ t : Fin grid0.N, win0_2.index t 0 = t.val / 32 ∧ win0_2.index t 1 = 0
    ∧ win0_2.index t 2 = 0)

/-- At a point where the output block is written back (the last point of a batch) the block
    written is the table of squared Hausdorff numbers read at that block: its one entry is the
    number of batch t / 32. -/
theorem flushed_of (c : Dev nD)
    (hout : ∀ (t : ℕ) (h : t < cfg0.N), t % 32 = 31 → ∀ j, (outsAt0 m c t h).1 j = hdN m c (t / 32))
    (t : Fin cfg0.N) (hf : (cfg0.win 2).flush t = true) :
    (dats m 0 c).flushed 2 t
      = ((cfg0.win 2).blk t).view.read (Elt Ideal) (fun i : S4x1x1.Idx => hdN m c (i 0).val) := by
  have ht31 : t.val % 32 = 31 := (flush0_2 t).mp hf
  obtain ⟨e0, _, _⟩ := idx2 t
  show (cfg0.win 2).cut (grid0.coords t) ((dats m 0 c).after 2 t) = _
  rw [after0_2]
  funext y
  rw [View.read_apply]
  refine (hout t.val t.isLt ht31 y).trans ?_
  show hdN m c (t.val / 32) = hdN m c ((((cfg0.win 2).blk t).view.emb y) 0).val
  refine congrArg (hdN m c) ?_
  have hy : (y 0).val < 1 := (y 0).isLt
  show t.val / 32 = win0_2.index t 0 * 1 + 1 * (y 0).val
  rw [e0]; omega

/-- Every entry (b, 0, 0) of the table lies in the block written back at the last point of its
    batch, t = 32 b + 31. -/
theorem cover2 (i : S4x1x1.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 1 := (i 2).isLt
  have hN : cfg0.N = 128 := N_0
  have hlt : (i 0).val * 32 + 31 < cfg0.N := by rw [hN]; omega
  obtain ⟨e0, e1, e2⟩ := idx2 ⟨(i 0).val * 32 + 31, hlt⟩
  refine ⟨⟨(i 0).val * 32 + 31, hlt⟩, (flush0_2 _).mpr ?_, ?_⟩
  · show ((i 0).val * 32 + 31) % 32 = 31
    omega
  · show i ∈ ((View.whole main_v1).slice (win0_2.rect ⟨(i 0).val * 32 + 31, hlt⟩)).set
    rw [View.set_slice_whole, Rect.mem_set_unit]
    intro a
    match a with
    | ⟨0, _⟩ =>
      show win0_2.index ⟨(i 0).val * 32 + 31, hlt⟩ 0 * 1 ≤ (i 0).val
        ∧ (i 0).val < win0_2.index ⟨(i 0).val * 32 + 31, hlt⟩ 0 * 1 + 1
      rw [e0]
      show ((i 0).val * 32 + 31) / 32 * 1 ≤ (i 0).val ∧ (i 0).val < ((i 0).val * 32 + 31) / 32 * 1 + 1
      omega
    | ⟨1, _⟩ =>
      show win0_2.index ⟨(i 0).val * 32 + 31, hlt⟩ 1 * 1 ≤ (i 1).val
        ∧ (i 1).val < win0_2.index ⟨(i 0).val * 32 + 31, hlt⟩ 1 * 1 + 1
      rw [e1]; omega
    | ⟨2, _⟩ =>
      show win0_2.index ⟨(i 0).val * 32 + 31, hlt⟩ 2 * 1 ≤ (i 2).val
        ∧ (i 2).val < win0_2.index ⟨(i 0).val * 32 + 31, hlt⟩ 2 * 1 + 1
      rw [e2]; omega

/-- After the last grid point the output table holds each batch's squared Hausdorff number: every
    entry has been written back, at the last point of its batch, with that number. -/
theorem final_of (c : Dev nD)
    (hout : ∀ (t : ℕ) (h : t < cfg0.N), t % 32 = 31 → ∀ j, (outsAt0 m c t h).1 j = hdN m c (t / 32)) :
    (dats m 0 c).arrAt 2 cfg0.N = fun i : S4x1x1.Idx => hdN m c (i 0).val :=
  (dats m 0 c).arrAt_eq_of_cover 2 _ (flushed_of m c hout) cover2

/-- The kernel's run, read: the result holds the symmetric Hausdorff distance of each batch and
    the two point clouds are unchanged. The table after the grid is the squared Hausdorff numbers,
    the host's tail takes their clamped square roots, and each squared number is the Hausdorff
    number of the batch's table of squared distances. -/
theorem run_of (ρ : Dev nD → PrngReg)
    (hout : ∀ (c : Dev nD) (t : ℕ) (h : t < cfg0.N), t % 32 = 31 →
      ∀ j, (outsAt0 m c t h).1 j = hdN m c (t / 32)) :
    θ_run (defs (F := Ideal)) (onTc (τ := τ) (main (F := Ideal))) ⟨m, fun _ => 0, ρ⟩
      (fun r => ∀ c : Dev nD,
        r.2.mem ((c.tc : Thread nD τ).loc main_v5)
            = Cert.Hausdorff.hausdorffValue (m ((c.tc : Thread nD τ).loc main_arg0))
                (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans
        ((tail_value m c _ (final_of m c (hout c))).trans (funext fun j => by
          obtain ⟨b, rfl⟩ : ∃ b : Fin 4, j = ix1 b := ⟨j 0, eq_ix1 j⟩
          show clampSqrt (hdN m c b.val) = _
          rw [hdN_eq]
          rfl)),
      ((h c).1 0).trans (((dats m 0 c).arrAt_in 0 rfl _).trans ((A_eq m c 0).trans (V_main_arg0 m c))),
      ((h c).2 main_arg1 (Pipeline.mem_restRefs_of main_arg1 (by decide) (by decide))).trans
        (W_main_arg1 m (dats m) c)⟩)
    (run_main m ρ)

end Cert.KernelIdeal.HValue

end
-- ==== Proof.KernelRun.lean ====
/-
  The kernel's run, read: every execution ends with the result array at the common result — for each batch
  the clamped square root of the squared Hausdorff number of the batch's table of squared distances — and
  the two coordinate arrays unchanged. The induction over the grid points gives what the output block
  holds at each batch's last point; the write-backs of those four points cover the output array; the
  host lines after the grid take the clamped square root.
-/
import proofs.«168341_j11381663334571_2_alg».proof.Proof.Invariant
import proofs.«168341_j11381663334571_2_alg».proof.Proof.Final

set_option maxRecDepth 16384

noncomputable section

open Idealize.ShloMosaic Idealize.ShloMosaic.TcCoe Idealize.SL.Sem
open Idealize.ShloMosaic.Pipeline (Dat)

namespace Cert.KernelIdeal.HValue

open Cert.KernelIdeal Cert.KernelIdeal.Gen Idealize.ShloMosaic.ValueIdx Cert.Hausdorff

/-- The kernel, at the extended reals: it terminates without fault, its result is the common result of the two
    coordinate arrays, and it leaves those arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = Cert.Hausdorff.hausdorffValue (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (fun c t h => (inv m c t h).out)

end Cert.KernelIdeal.HValue

end
-- ==== Proof.lean ====
/-
  The kernel computes the symmetric Hausdorff distance of the reference.

  For each of four batches the two programs take two clouds of 8192 points in three coordinates. The reference
  forms the table of pairwise distances as the square root of the expansion |a|² + |g|² − 2 a·g clamped at zero,
  and answers the larger of  max over the first cloud of the min over the second  and  max over the second of the
  min over the first. The kernel walks the table tile by tile on SQUARED distances, written as sums of squared
  coordinate differences, keeps running minima along both directions and running maxima of the finished minima, and
  takes one square root at the end.

  Over finite inputs (the precondition) the two agree at the extended reals, where every operation is exact:
  the expansion is an identity over the reals, so both tables hold the same squared distances; the tiled running
  minima and maxima are the minima and maxima over the whole index ranges, in either order of the tiles; and the
  clamped square root is monotone, so taking it entry by entry before the minima and maxima, as the reference does,
  or once after them, as the kernel does, gives the same number.

  Besides that equality the certificate states that each program runs to the end without fault and leaves its two
  argument arrays unchanged.
-/
import proofs.«168341_j11381663334571_2_alg».proof.Defs
import proofs.«168341_j11381663334571_2_alg».proof.Proof.Gen.Kernel
import proofs.«168341_j11381663334571_2_alg».proof.Proof.Gen.Kernel.Skeleton
import proofs.«168341_j11381663334571_2_alg».proof.Proof.Gen.Kernel.Launch
import proofs.«168341_j11381663334571_2_alg».proof.Proof.Gen.Kernel.Points
import proofs.«168341_j11381663334571_2_alg».proof.Proof.Gen.Kernel.Frame
import proofs.«168341_j11381663334571_2_alg».proof.Proof.Gen.KernelIdeal
import proofs.«168341_j11381663334571_2_alg».proof.Proof.Gen.KernelIdeal.Skeleton
import proofs.«168341_j11381663334571_2_alg».proof.Proof.Gen.KernelIdeal.Launch
import proofs.«168341_j11381663334571_2_alg».proof.Proof.Gen.KernelIdeal.Points
import proofs.«168341_j11381663334571_2_alg».proof.Proof.Gen.KernelIdeal.Frame
import proofs.«168341_j11381663334571_2_alg».proof.Proof.Gen.ReferenceIdeal
import proofs.«168341_j11381663334571_2_alg».proof.Proof.Gen.Pre_finite_inputs
import proofs.«168341_j11381663334571_2_alg».proof.Proof.Gen.ReferenceIdeal.Run
import proofs.«168341_j11381663334571_2_alg».proof.Proof.Gen.ReferenceIdeal.Read
import proofs.«168341_j11381663334571_2_alg».proof.Proof.Spec
import proofs.«168341_j11381663334571_2_alg».proof.Proof.Assembly
import proofs.«168341_j11381663334571_2_alg».proof.Proof.KernelRun
import Idealize.ShloMosaic.Adequacy
import Idealize.ShloMosaic.Init

noncomputable section

namespace Cert.Proof

open Idealize.ShloMosaic Idealize.SL.Sem Cert.Kernel

/-- Every claim of the certificate: the three runs with unchanged arguments, the idealization that rewrote nothing,
    and the equality of the kernel's and the reference's results at the extended reals, from the kernel's run to the
    common result. -/
theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of_run Cert.KernelIdeal.HValue.run⟩

end Cert.Proof

end
